-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000 : Shape := ⟨1, ![100000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x64 .f32) (main_arg10 : FVec F S64 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S1600000 .f32) (main_arg7 : FVec F S64x64 .f32) (main_arg8 : FVec F S64 .f32) (main_arg9 : FVec F S64x64 .f32) (main_arg10 : FVec F S64 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S1600000 .f32 := Host.absf main_arg4
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : FVec F S100000x64 .f32) (main_arg2 : FVec F S100000 .f32) (main_arg3 : FVec F S1600000 .f32) (main_arg4 : FVec F S1600000 .f32) (main_arg5 : IVec S1600000 32) (main_arg6 : IVec S1600000 32) (main_arg7 : FVec F S64x64 .f32) (main_arg8 : FVec F S64 .f32) (main_arg9 : FVec F S64x64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg4 main_arg7 main_arg8 main_arg9 main_arg10 main_v13 main_v16
-- ==== Kernel.lean ====
abbrev S100000x64 : Shape := ⟨2, ![100000, 64]⟩
abbrev S100000 : Shape := ⟨1, ![100000]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S4000x64 : Shape := ⟨2, ![4000, 64]⟩
abbrev S4000x1 : Shape := ⟨2, ![4000, 1]⟩
abbrev S1x64 : Shape := ⟨2, ![1, 64]⟩
abbrev S1000x64 : Shape := ⟨2, ![1000, 64]⟩

abbrev nBuf : Space → Nat
  | .hbm => 65
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S100000, .f32⟩
  | .hbm, ⟨3, _⟩ => ⟨S1600000, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S1600000, .f32⟩
  | .hbm, ⟨48, _⟩ => ⟨S1600000x1, .f32⟩
  | .hbm, ⟨49, _⟩ => ⟨S1600000x1, .f32⟩
  | .hbm, ⟨50, _⟩ => ⟨S1600000x1, .f32⟩
  | .hbm, ⟨51, _⟩ => ⟨S1600000x64, .f32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S1x64, .f32⟩
  | .hbm, ⟨62, _⟩ => ⟨S1x64, .f32⟩
  | .hbm, ⟨63, _⟩ => ⟨S100000x64, .f32⟩
  | .hbm, ⟨64, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S4000x1, .f32⟩
  | .local _ .vmem, ⟨7, _⟩ => ⟨S4000x1, .f32⟩
  | .local _ .vmem, ⟨8, _⟩ => ⟨S4000x1, .f32⟩
  | .local _ .vmem, ⟨9, _⟩ => ⟨S4000x1, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S1000x64, .f32⟩
  | .local _ .vmem, ⟨15, _⟩ => ⟨S1000x64, .f32⟩
  | .local _ .vmem, ⟨16, _⟩ => ⟨S1000x64, .f32⟩
  | .local _ .vmem, ⟨17, _⟩ => ⟨S1000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S1000x64, .f32⟩
  | .local _ .vmem, ⟨23, _⟩ => ⟨S1000x64, .f32⟩
  | .local _ .vmem, ⟨24, _⟩ => ⟨S1000x64, .f32⟩
  | .local _ .vmem, ⟨25, _⟩ => ⟨S1000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32_0 : Ref sig .tc := ⟨.hbm, 51, rfl⟩
abbrev main_v32_1 : Ref sig .tc := ⟨.hbm, 52, rfl⟩
abbrev main_cst : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41_0 : Ref sig .tc := ⟨.hbm, 63, rfl⟩
abbrev main_v41_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000_S1600000x1 : S1600000.ShapeCasts S1600000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bcast_S_S100000x64 : S_.BroadcastsInDim S100000x64 (![] : Fin 0 → Fin S100000x64.rank)
  shapeCasts_S64_S1x64 : S64.ShapeCasts S1x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x64_p1_0_S64x64 : S64x64.Transposes [1, 0] S64x64
  broadcasts_S1x64_S1000x64 : S1x64.Broadcasts S1000x64
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S1000x64_S64x64_S1000x64_1_0_0_1_n_n_wf : DotDims.WF S1000x64 S64x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S1600000x64.size a
  hwx0_0 : ∀ i : grid0.Coords, EltTy.bits .f32 = 32 ∨ (Rect.block (s := S1600000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1600000x64.size a
  hwx0_1 : ∀ i : grid0.Coords, EltTy.bits .f32 = 32 ∨ (Rect.block (s := S1600000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S1600000x1.size a
  hwx0_2 : ∀ i : grid0.Coords, EltTy.bits .f32 = 32 ∨ (Rect.block (s := S1600000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S1600000x1.size a
  hwx0_3 : ∀ i : grid0.Coords, EltTy.bits .f32 = 32 ∨ (Rect.block (s := S1600000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S1600000x1.size a
  hwx0_4 : ∀ i : grid0.Coords, EltTy.bits .f32 = 32 ∨ (Rect.block (s := S1600000x1) S4000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S1600000x64.size a
  hwx0_5 : ∀ i : grid0.Coords, EltTy.bits .f32 = 32 ∨ (Rect.block (s := S1600000x64) S4000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S1600000x64.size a
  hwx0_6 : ∀ i : grid0.Coords, EltTy.bits .f32 = 32 ∨ (Rect.block (s := S1600000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S100000x64.size a
  hwx1_0 : ∀ i : grid1.Coords, EltTy.bits .f32 = 32 ∨ (Rect.block (s := S100000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S100000x64.size a
  hwx1_1 : ∀ i : grid1.Coords, EltTy.bits .f32 = 32 ∨ (Rect.block (s := S100000x64) S1000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x64.size a ≤ S100000x64.size a
  hwx1_6 : ∀ i : grid1.Coords, EltTy.bits .f32 = 32 ∨ (Rect.block (s := S100000x64) S1000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x64.size a ≤ S100000x64.size a
  hwx1_7 : ∀ i : grid1.Coords, EltTy.bits .f32 = 32 ∨ (Rect.block (s := S100000x64) S1000x64.size (cc1_transform_7 i) (hinb1_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf

abbrev win0_0 : Pipeline.Window sig grid0 :=
  Pipeline.Window.ofSpec (Memref.whole main_v6) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v32_0) S4000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32_1) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41_0) S1000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v41_1) S1000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S100000 : Shape := ⟨1, ![100000]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S100000, .f32⟩
  | .hbm, ⟨3, _⟩ => ⟨S1600000, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S1600000, .f32⟩
  | .hbm, ⟨30, _⟩ => ⟨S1600000, .f32⟩
  | .hbm, ⟨31, _⟩ => ⟨S1600000x1, .f32⟩
  | .hbm, ⟨32, _⟩ => ⟨S1600000, .f32⟩
  | .hbm, ⟨33, _⟩ => ⟨S1600000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1600000x64, .f32⟩
  | .hbm, ⟨53, _⟩ => ⟨S1600000x64, .f32⟩
  | .hbm, ⟨54, _⟩ => ⟨S1600000x64, .f32⟩
  | .hbm, ⟨55, _⟩ => ⟨S1600000x64, .f32⟩
  | .hbm, ⟨56, _⟩ => ⟨S1600000x64, .f32⟩
  | .hbm, ⟨57, _⟩ => ⟨S1600000x64, .f32⟩
  | .hbm, ⟨58, _⟩ => ⟨S1600000x64, .f32⟩
  | .hbm, ⟨59, _⟩ => ⟨S1600000x64, .f32⟩
  | .hbm, ⟨60, _⟩ => ⟨S1600000x64, .f32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S1600000x1, .i32⟩
  | .hbm, ⟨69, _⟩ => ⟨S100000x64, .f32⟩
  | .hbm, ⟨70, _⟩ => ⟨S64x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S64x64, .f32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S64x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its two result arrays NAMED.

  @main is four segments: the host operations before the first launch, the edge-message launch, the host operations
  between the launches (the two scatter-adds and the bias reshapes), and the mixing launch.  The library's launch
  theorem for a chain of segments ends with every unscoped buffer of the core at the last boundary's contents; read at
  the two result arrays this gives what each holds at the end (the contents the mixing launch leaves), and read at the
  arguments, as the frame does, that they are as launched.
-/
import proofs.«164345_j67585605369883_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the contents the last
    segment boundary gives them and every argument as launched. -/
theorem run_named : θ_run defs (onTc (τ := τ) (main (F := F))) ⟨m, fun _ => 0, ρ⟩ (fun r => ∀ c : Dev nD,
      r.2.mem ((c.tc : Thread nD τ).loc main_v41_0) = W4 m ρ c (Proc.devRef .tc main_v41_0)
      ∧ r.2.mem ((c.tc : Thread nD τ).loc main_v41_1) = W4 m ρ c (Proc.devRef .tc main_v41_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41_0 (by decide)),
       h c _ (mem_uc main_v41_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Named

end
-- ==== Proof.Spec.lean ====
/-
  The mathematics of the signed message-passing layer, stated once over plain index functions into the extended reals.

  Per edge e and feature k the complex message is the edge coefficient (p e · w e) times the gathered source feature:
    re(e,k) = (p e · wr e) · hr(e,k) − (p e · wi e) · hi(e,k),
    im(e,k) = (p e · wi e) · hr(e,k) + (p e · wr e) · hi(e,k),
  where p e is the product of the two endpoint degrees.  Per node n and output feature j the linear mix is
    zr(n,j) = (Σ_k a(n,k) · W1(j,k) + b1 j) − (Σ_k b(n,k) · W2(j,k) + b2 j),
    zi(n,j) = (Σ_k zr(n,k) · W2(j,k) + b2 j) + (Σ_k b(n,k) · W1(j,k) + b1 j),
  with a, b the real and imaginary node sums.  Nothing here distributes a product over a sum or cancels anything, so
  every statement holds for all extended reals, infinite ones included.
-/
import Idealize.ShloMosaic.PureOps.Ideal
import Idealize.ShloMosaic.Lib.ValueIdx

noncomputable section

namespace Cert.Spec

open Idealize.ShloMosaic Idealize.ShloMosaic.ValueIdx

/-- Arrays of extended reals over the literal shapes of this layer. -/
abbrev EdgeMat := (⟨2, ![1600000, 64]⟩ : Shape).Idx → EReal
abbrev EdgeVec := (⟨1, ![1600000]⟩ : Shape).Idx → EReal
abbrev NodeMat := (⟨2, ![100000, 64]⟩ : Shape).Idx → EReal
abbrev Weight := (⟨2, ![64, 64]⟩ : Shape).Idx → EReal
abbrev Bias := (⟨1, ![64]⟩ : Shape).Idx → EReal

/-- Real part of edge `e`'s message at feature `k`. -/
def msgReAt (hr hi : EdgeMat) (p wr wi : EdgeVec) (e : Fin 1600000) (k : Fin 64) : EReal :=
  (p (ix1 e) * wr (ix1 e)) * hr (ix2 e k) - (p (ix1 e) * wi (ix1 e)) * hi (ix2 e k)

/-- Imaginary part of edge `e`'s message at feature `k`. -/
def msgImAt (hr hi : EdgeMat) (p wr wi : EdgeVec) (e : Fin 1600000) (k : Fin 64) : EReal :=
  (p (ix1 e) * wi (ix1 e)) * hr (ix2 e k) + (p (ix1 e) * wr (ix1 e)) * hi (ix2 e k)

/-- The real parts of all messages, as one array. -/
def msgRe (hr hi : EdgeMat) (p wr wi : EdgeVec) : EdgeMat := fun i => msgReAt hr hi p wr wi (i 0) (i 1)

/-- The imaginary parts of all messages, as one array. -/
def msgIm (hr hi : EdgeMat) (p wr wi : EdgeVec) : EdgeMat := fun i => msgImAt hr hi p wr wi (i 0) (i 1)

/-- One affine row: `Σ_k z(n,k) · W(j,k) + b j`, the product of row `n` with the TRANSPOSED weight plus the bias. -/
def affAt (z : NodeMat) (W : Weight) (b : Bias) (n : Fin 100000) (j : Fin 64) : EReal :=
  (∑ k : Fin 64, z (ix2 n k) * W (ix2 j k)) + b (ix1 j)

/-- Real part of the mixed node feature. -/
def mixReAt (a b : NodeMat) (W1 W2 : Weight) (b1 b2 : Bias) (n : Fin 100000) (j : Fin 64) : EReal :=
  affAt a W1 b1 n j - affAt b W2 b2 n j

/-- The real parts, as one array. -/
def mixRe (a b : NodeMat) (W1 W2 : Weight) (b1 b2 : Bias) : NodeMat := fun i => mixReAt a b W1 W2 b1 b2 (i 0) (i 1)

/-- Imaginary part of the mixed node feature: the affine map by `W2` of the NEW real part, plus that by `W1` of the
    imaginary node sum. -/
def mixImAt (a b : NodeMat) (W1 W2 : Weight) (b1 b2 : Bias) (n : Fin 100000) (j : Fin 64) : EReal :=
  affAt (mixRe a b W1 W2 b1 b2) W2 b2 n j + affAt b W1 b1 n j

/-- The imaginary parts, as one array. -/
def mixIm (a b : NodeMat) (W1 W2 : Weight) (b1 b2 : Bias) : NodeMat := fun i => mixImAt a b W1 W2 b1 b2 (i 0) (i 1)

/-- An edge vector laid out as a one-column matrix. -/
abbrev EdgeCol := (⟨2, ![1600000, 1]⟩ : Shape).Idx → EReal
def col (x : EdgeVec) : EdgeCol := fun i => x (ix1 (i 0))

/-- The same two message parts with the three per-edge scalars given as one-column matrices (how the launch takes
    them): edge `e` reads each column at `(e, 0)`. -/
def edgeReAt (hr hi : EdgeMat) (dd wr wi : EdgeCol) (e : Fin 1600000) (k : Fin 64) : EReal :=
  (dd (ix2 e (0 : Fin 1)) * wr (ix2 e (0 : Fin 1))) * hr (ix2 e k) - (dd (ix2 e (0 : Fin 1)) * wi (ix2 e (0 : Fin 1))) * hi (ix2 e k)
def edgeImAt (hr hi : EdgeMat) (dd wr wi : EdgeCol) (e : Fin 1600000) (k : Fin 64) : EReal :=
  (dd (ix2 e (0 : Fin 1)) * wi (ix2 e (0 : Fin 1))) * hr (ix2 e k) + (dd (ix2 e (0 : Fin 1)) * wr (ix2 e (0 : Fin 1))) * hi (ix2 e k)
def edgeRe (hr hi : EdgeMat) (dd wr wi : EdgeCol) : EdgeMat := fun i => edgeReAt hr hi dd wr wi (i 0) (i 1)
def edgeIm (hr hi : EdgeMat) (dd wr wi : EdgeCol) : EdgeMat := fun i => edgeImAt hr hi dd wr wi (i 0) (i 1)

theorem edgeRe_col (hr hi : EdgeMat) (p wr wi : EdgeVec) : edgeRe hr hi (col p) (col wr) (col wi) = msgRe hr hi p wr wi := rfl
theorem edgeIm_col (hr hi : EdgeMat) (p wr wi : EdgeVec) : edgeIm hr hi (col p) (col wr) (col wi) = msgIm hr hi p wr wi := rfl

/-- A bias vector laid out as a one-row matrix. -/
abbrev BiasRow := (⟨2, ![1, 64]⟩ : Shape).Idx → EReal
def rowb (b : Bias) : BiasRow := fun i => b (ix1 (i 1))

/-- The same mix with the two biases given as one-row matrices (how the launch takes them): feature `j` reads each
    at `(0, j)`. -/
def affRowAt (z : NodeMat) (W : Weight) (b : BiasRow) (n : Fin 100000) (j : Fin 64) : EReal :=
  (∑ k : Fin 64, z (ix2 n k) * W (ix2 j k)) + b (ix2 (0 : Fin 1) j)
def mixRowReAt (a b : NodeMat) (W1 W2 : Weight) (b1 b2 : BiasRow) (n : Fin 100000) (j : Fin 64) : EReal :=
  affRowAt a W1 b1 n j - affRowAt b W2 b2 n j
def mixRowRe (a b : NodeMat) (W1 W2 : Weight) (b1 b2 : BiasRow) : NodeMat := fun i => mixRowReAt a b W1 W2 b1 b2 (i 0) (i 1)
def mixRowImAt (a b : NodeMat) (W1 W2 : Weight) (b1 b2 : BiasRow) (n : Fin 100000) (j : Fin 64) : EReal :=
  affRowAt (mixRowRe a b W1 W2 b1 b2) W2 b2 n j + affRowAt b W1 b1 n j
def mixRowIm (a b : NodeMat) (W1 W2 : Weight) (b1 b2 : BiasRow) : NodeMat := fun i => mixRowImAt a b W1 W2 b1 b2 (i 0) (i 1)

theorem mixRowRe_rowb (a b : NodeMat) (W1 W2 : Weight) (b1 b2 : Bias) :
    mixRowRe a b W1 W2 (rowb b1) (rowb b2) = mixRe a b W1 W2 b1 b2 := rfl
theorem mixRowIm_rowb (a b : NodeMat) (W1 W2 : Weight) (b1 b2 : Bias) :
    mixRowIm a b W1 W2 (rowb b1) (rowb b2) = mixIm a b W1 W2 b1 b2 := rfl

theorem msgRe_ix2 (hr hi : EdgeMat) (p wr wi : EdgeVec) (e : Fin 1600000) (k : Fin 64) :
    msgRe hr hi p wr wi (ix2 e k) = msgReAt hr hi p wr wi e k := rfl
theorem msgIm_ix2 (hr hi : EdgeMat) (p wr wi : EdgeVec) (e : Fin 1600000) (k : Fin 64) :
    msgIm hr hi p wr wi (ix2 e k) = msgImAt hr hi p wr wi e k := rfl
theorem mixRe_ix2 (a b : NodeMat) (W1 W2 : Weight) (b1 b2 : Bias) (n : Fin 100000) (j : Fin 64) :
    mixRe a b W1 W2 b1 b2 (ix2 n j) = mixReAt a b W1 W2 b1 b2 n j := rfl
theorem mixIm_ix2 (a b : NodeMat) (W1 W2 : Weight) (b1 b2 : Bias) (n : Fin 100000) (j : Fin 64) :
    mixIm a b W1 W2 b1 b2 (ix2 n j) = mixImAt a b W1 W2 b1 b2 n j := rfl

end Cert.Spec

end
-- ==== Proof.Region0.lean ====
/-
  The edge-message launch, read as a value.

  The grid has 400 points; point t takes rows 4000·t … 4000·t + 3999 of each of its seven arrays (the two gathered
  feature matrices, the three one-column matrices of per-edge scalars, the two outputs).  The body is pointwise: at row
  r and feature k it forms the two coefficients (dd·wr)(r), (dd·wi)(r), broadcast along the feature axis, and the two
  products' difference and sum.  So what point t writes back is block t of ONE function of the whole arrays,
  `Spec.edgeRe` / `Spec.edgeIm`, and since the 400 blocks tile the outputs, each output array ends as that function.
-/
import proofs.«164345_j67585605369883_2_alg».proof.Proof.Gen.KernelIdeal.Frame
import proofs.«164345_j67585605369883_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Edge

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-- A one-column block broadcast along the feature axis reads its row's entry. -/
theorem bcast_col (y : FVec Ideal S4000x1 .f32) (r : Fin 4000) (k : Fin 64) :
    broadcastTo S4000x64 y broadcasts_S4000x1_S4000x64 (ix2 r k) = y (ix2 r (0 : Fin 1)) :=
  broadcastTo_apply y broadcasts_S4000x1_S4000x64 (ix2 r k) (ix2 r (0 : Fin 1)) (fun a => match a with
    | ⟨0, _⟩ => by show r.val = if (4000 : Nat) = 1 then 0 else r.val; rw [if_neg (by decide)]
    | ⟨1, _⟩ => by show (0 : Nat) = if (1 : Nat) = 1 then 0 else k.val; rw [if_pos rfl])

/-- The real-part payload at row `r`, feature `k` of a point's blocks. -/
theorem payRe_at (x0 x1 : Vec Ideal S4000x64 .f32) (x2 x3 x4 : Vec Ideal S4000x1 .f32) (r : Fin 4000) (k : Fin 64) :
    k0_pay5 (F := Ideal) x0 x1 x2 x3 x2 x4 (ix2 r k)
      = (x2 (ix2 r (0 : Fin 1)) * x3 (ix2 r (0 : Fin 1))) * x0 (ix2 r k) - (x2 (ix2 r (0 : Fin 1)) * x4 (ix2 r (0 : Fin 1))) * x1 (ix2 r k) := by
  unfold k0_pay5 k0_pay3 k0_pay4 k0_pay1 k0_pay2
  simp only [shapeCast_self]
  rw [subf_apply, mulf_apply, mulf_apply, bcast_col, bcast_col, mulf_apply, mulf_apply]

/-- The imaginary-part payload at row `r`, feature `k` of a point's blocks. -/
theorem payIm_at (x0 x1 : Vec Ideal S4000x64 .f32) (x2 x3 x4 : Vec Ideal S4000x1 .f32) (r : Fin 4000) (k : Fin 64) :
    k0_pay6 (F := Ideal) x0 x1 x2 x3 x2 x4 (ix2 r k)
      = (x2 (ix2 r (0 : Fin 1)) * x4 (ix2 r (0 : Fin 1))) * x0 (ix2 r k) + (x2 (ix2 r (0 : Fin 1)) * x3 (ix2 r (0 : Fin 1))) * x1 (ix2 r k) := by
  unfold k0_pay6 k0_pay3 k0_pay4 k0_pay1 k0_pay2
  simp only [shapeCast_self]
  rw [addf_apply, mulf_apply, mulf_apply, bcast_col, bcast_col, mulf_apply, mulf_apply]

/-! ## The blocks of the whole arrays -/

/-- Every window's block index at point `t`: block row `t`, block column 0 (decided over the 400 points). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The array row that row `r` of point `t`'s block is. -/
def erow (t : Fin cfg0.N) (r : Fin 4000) : Fin 1600000 :=
  ⟨t.val * 4000 + r.val, by have h1 := t.isLt; have h2 := r.isLt; have h : cfg0.N = 400 := N_0; omega⟩

section
variable (V : (c : Dev nD) → (b : Ref sig .tc) → Buf (Elt Ideal) ((c : Thread nD τ).loc b))

/-- Row `r`, feature `k` of point `t`'s block of window 0 is the array at row `4000·t + r`. -/
theorem blk0_at (c : Dev nD) (t : Fin cfg0.N) (r : Fin 4000) (k : Fin 64) :
    iblk0 V c 0 t (ix2 r k) = V c main_v6 (ix2 (erow t r) k) := by
  show V c main_v6 (((cfg0.win 0).blk t).view.emb (ix2 r k)) = _
  refine congrArg (V c main_v6) (funext fun a => Fin.ext ?_)
  match a with
  | ⟨0, _⟩ => show win0_0.index t (0 : Fin 2) * 4000 + 1 * r.val = t.val * 4000 + r.val; rw [(idx_facts t).1]; omega
  | ⟨1, _⟩ => show win0_0.index t (1 : Fin 2) * 64 + 1 * k.val = k.val; rw [(idx_facts t).2.1]; omega

/-- Row `r`, feature `k` of point `t`'s block of window 1 is the array at row `4000·t + r`. -/
theorem blk1_at (c : Dev nD) (t : Fin cfg0.N) (r : Fin 4000) (k : Fin 64) :
    iblk0 V c 1 t (ix2 r k) = V c main_v13 (ix2 (erow t r) k) := by
  show V c main_v13 (((cfg0.win 1).blk t).view.emb (ix2 r k)) = _
  refine congrArg (V c main_v13) (funext fun a => Fin.ext ?_)
  match a with
  | ⟨0, _⟩ => show win0_1.index t (0 : Fin 2) * 4000 + 1 * r.val = t.val * 4000 + r.val; rw [(idx_facts t).2.2.1]; omega
  | ⟨1, _⟩ => show win0_1.index t (1 : Fin 2) * 64 + 1 * k.val = k.val; rw [(idx_facts t).2.2.2.1]; omega

/-- Row `r` of point `t`'s block of the one-column window 2 is the array at row `4000·t + r`. -/
theorem blk2_at (c : Dev nD) (t : Fin cfg0.N) (r : Fin 4000) :
    iblk0 V c 2 t (ix2 r (0 : Fin 1)) = V c main_v29 (ix2 (erow t r) (0 : Fin 1)) := by
  show V c main_v29 (((cfg0.win 2).blk t).view.emb (ix2 r (0 : Fin 1))) = _
  refine congrArg (V c main_v29) (funext fun a => Fin.ext ?_)
  match a with
  | ⟨0, _⟩ => show win0_2.index t (0 : Fin 2) * 4000 + 1 * r.val = t.val * 4000 + r.val; rw [(idx_facts t).2.2.2.2.1]; omega
  | ⟨1, _⟩ => show win0_2.index t (1 : Fin 2) * 1 + 1 * 0 = 0; rw [(idx_facts t).2.2.2.2.2.1]

/-- Row `r` of point `t`'s block of the one-column window 3 is the array at row `4000·t + r`. -/
theorem blk3_at (c : Dev nD) (t : Fin cfg0.N) (r : Fin 4000) :
    iblk0 V c 3 t (ix2 r (0 : Fin 1)) = V c main_v30 (ix2 (erow t r) (0 : Fin 1)) := by
  show V c main_v30 (((cfg0.win 3).blk t).view.emb (ix2 r (0 : Fin 1))) = _
  refine congrArg (V c main_v30) (funext fun a => Fin.ext ?_)
  match a with
  | ⟨0, _⟩ => show win0_3.index t (0 : Fin 2) * 4000 + 1 * r.val = t.val * 4000 + r.val; rw [(idx_facts t).2.2.2.2.2.2.1]; omega
  | ⟨1, _⟩ => show win0_3.index t (1 : Fin 2) * 1 + 1 * 0 = 0; rw [(idx_facts t).2.2.2.2.2.2.2.1]

/-- Row `r` of point `t`'s block of the one-column window 4 is the array at row `4000·t + r`. -/
theorem blk4_at (c : Dev nD) (t : Fin cfg0.N) (r : Fin 4000) :
    iblk0 V c 4 t (ix2 r (0 : Fin 1)) = V c main_v31 (ix2 (erow t r) (0 : Fin 1)) := by
  show V c main_v31 (((cfg0.win 4).blk t).view.emb (ix2 r (0 : Fin 1))) = _
  refine congrArg (V c main_v31) (funext fun a => Fin.ext ?_)
  match a with
  | ⟨0, _⟩ => show win0_4.index t (0 : Fin 2) * 4000 + 1 * r.val = t.val * 4000 + r.val; rw [(idx_facts t).2.2.2.2.2.2.2.2.1]; omega
  | ⟨1, _⟩ => show win0_4.index t (1 : Fin 2) * 1 + 1 * 0 = 0; rw [(idx_facts t).2.2.2.2.2.2.2.2.2.1]

/-- Where point `t`'s block of output window 5 sits in its array. -/
theorem emb5_at (t : Fin cfg0.N) (r : Fin 4000) (k : Fin 64) :
    ((cfg0.win 5).blk t).view.emb (ix2 r k) = ix2 (erow t r) k := by
  funext a; apply Fin.ext
  match a with
  | ⟨0, _⟩ => show win0_5.index t (0 : Fin 2) * 4000 + 1 * r.val = t.val * 4000 + r.val; rw [(idx_facts t).2.2.2.2.2.2.2.2.2.2.1]; omega
  | ⟨1, _⟩ => show win0_5.index t (1 : Fin 2) * 64 + 1 * k.val = k.val; rw [(idx_facts t).2.2.2.2.2.2.2.2.2.2.2.1]; omega

/-- WHAT POINT `t` WRITES BACK through window 5 is block `t` of the real message parts of the whole entry arrays. -/
theorem flushed5_eq (c : Dev nD) (t : Fin cfg0.N) :
    (dat0 V c).flushed 5 t = ((cfg0.win 5).blk t).view.read (Elt Ideal)
      (Spec.edgeRe (V c main_v6) (V c main_v13) (V c main_v29) (V c main_v30) (V c main_v31)) := by
  show (cfg0.win 5).cut (grid0.coords t) ((dat0 V c).after 5 t) = _
  rw [after0_5]
  unfold out0_5
  rw [View.canon_unit_zero hz]
  simp only [View.ld_unit_zero (S := S4000x64) hz, View.ld_unit_zero (S := S4000x1) hz]
  funext j
  obtain ⟨r, k, rfl⟩ : ∃ (r : Fin 4000) (k : Fin 64), j = ix2 r k := ⟨j 0, j 1, eq_ix2 (n0 := 4000) (n1 := 64) j⟩
  refine (payRe_at (iblk0 V c 0 t) (iblk0 V c 1 t) (iblk0 V c 2 t) (iblk0 V c 3 t) (iblk0 V c 4 t) r k).trans ?_
  rw [blk0_at V c t r k, blk1_at V c t r k, blk2_at V c t r, blk3_at V c t r, blk4_at V c t r]
  show _ = Spec.edgeRe (V c main_v6) (V c main_v13) (V c main_v29) (V c main_v30) (V c main_v31) (((cfg0.win 5).blk t).view.emb (ix2 r k))
  rw [emb5_at t r k]
  rfl

/-- An index of output 5's array is in point `t`'s block iff each coordinate is in the block's range. -/
theorem mem_blk5 (t : Fin cfg0.N) (i : S1600000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v32_0).slice (win0_5.rect t)).set ↔ _
  rw [View.set_slice_whole, Rect.mem_set_unit]
  exact Iff.rfl

/-- Every index of output 5's array is in the block of the point its row falls in: row / 4000. -/
theorem cover5 (i : S1600000x64.Idx) : ∃ t : Fin cfg0.N, (cfg0.win 5).flush t = true ∧ i ∈ ((cfg0.win 5).blk t).view.set := by
  have hi0 : (i 0).val < 1600000 := (i 0).isLt
  have hi1 : (i 1).val < 64 := (i 1).isLt
  have hN : cfg0.N = 400 := N_0
  let t : Fin cfg0.N := ⟨(i 0).val / 4000, by rw [hN]; omega⟩
  have htv : t.val = (i 0).val / 4000 := rfl
  refine ⟨t, flush0_5 t, ?_⟩
  rw [mem_blk5]
  intro a
  match a with
  | ⟨0, _⟩ => show win0_5.index t (0 : Fin 2) * 4000 ≤ (i 0).val ∧ (i 0).val < win0_5.index t (0 : Fin 2) * 4000 + 4000; rw [(idx_facts t).2.2.2.2.2.2.2.2.2.2.1, htv]; omega
  | ⟨1, _⟩ => show win0_5.index t (1 : Fin 2) * 64 ≤ (i 1).val ∧ (i 1).val < win0_5.index t (1 : Fin 2) * 64 + 64; rw [(idx_facts t).2.2.2.2.2.2.2.2.2.2.2.1]; omega

/-- THE OUTPUT ARRAY of window 5 after the launch: the real message parts of the entry arrays. -/
theorem final5 (c : Dev nD) : (dat0 V c).arrAt 5 cfg0.N
    = Spec.edgeRe (V c main_v6) (V c main_v13) (V c main_v29) (V c main_v30) (V c main_v31) :=
  (dat0 V c).arrAt_eq_of_cover 5 _ (fun t _ => flushed5_eq V c t) cover5

/-- Where point `t`'s block of output window 6 sits in its array. -/
theorem emb6_at (t : Fin cfg0.N) (r : Fin 4000) (k : Fin 64) :
    ((cfg0.win 6).blk t).view.emb (ix2 r k) = ix2 (erow t r) k := by
  funext a; apply Fin.ext
  match a with
  | ⟨0, _⟩ => show win0_6.index t (0 : Fin 2) * 4000 + 1 * r.val = t.val * 4000 + r.val; rw [(idx_facts t).2.2.2.2.2.2.2.2.2.2.2.2.1]; omega
  | ⟨1, _⟩ => show win0_6.index t (1 : Fin 2) * 64 + 1 * k.val = k.val; rw [(idx_facts t).2.2.2.2.2.2.2.2.2.2.2.2.2]; omega

/-- WHAT POINT `t` WRITES BACK through window 6 is block `t` of the imaginary message parts of the whole entry arrays. -/
theorem flushed6_eq (c : Dev nD) (t : Fin cfg0.N) :
    (dat0 V c).flushed 6 t = ((cfg0.win 6).blk t).view.read (Elt Ideal)
      (Spec.edgeIm (V c main_v6) (V c main_v13) (V c main_v29) (V c main_v30) (V c main_v31)) := by
  show (cfg0.win 6).cut (grid0.coords t) ((dat0 V c).after 6 t) = _
  rw [after0_6]
  unfold out0_6
  rw [View.canon_unit_zero hz]
  simp only [View.ld_unit_zero (S := S4000x64) hz, View.ld_unit_zero (S := S4000x1) hz]
  funext j
  obtain ⟨r, k, rfl⟩ : ∃ (r : Fin 4000) (k : Fin 64), j = ix2 r k := ⟨j 0, j 1, eq_ix2 (n0 := 4000) (n1 := 64) j⟩
  refine (payIm_at (iblk0 V c 0 t) (iblk0 V c 1 t) (iblk0 V c 2 t) (iblk0 V c 3 t) (iblk0 V c 4 t) r k).trans ?_
  rw [blk0_at V c t r k, blk1_at V c t r k, blk2_at V c t r, blk3_at V c t r, blk4_at V c t r]
  show _ = Spec.edgeIm (V c main_v6) (V c main_v13) (V c main_v29) (V c main_v30) (V c main_v31) (((cfg0.win 6).blk t).view.emb (ix2 r k))
  rw [emb6_at t r k]
  rfl

/-- An index of output 6's array is in point `t`'s block iff each coordinate is in the block's range. -/
theorem mem_blk6 (t : Fin cfg0.N) (i : S1600000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v32_1).slice (win0_6.rect t)).set ↔ _
  rw [View.set_slice_whole, Rect.mem_set_unit]
  exact Iff.rfl

/-- Every index of output 6's array is in the block of the point its row falls in: row / 4000. -/
theorem cover6 (i : S1600000x64.Idx) : ∃ t : Fin cfg0.N, (cfg0.win 6).flush t = true ∧ i ∈ ((cfg0.win 6).blk t).view.set := by
  have hi0 : (i 0).val < 1600000 := (i 0).isLt
  have hi1 : (i 1).val < 64 := (i 1).isLt
  have hN : cfg0.N = 400 := N_0
  let t : Fin cfg0.N := ⟨(i 0).val / 4000, by rw [hN]; omega⟩
  have htv : t.val = (i 0).val / 4000 := rfl
  refine ⟨t, flush0_6 t, ?_⟩
  rw [mem_blk6]
  intro a
  match a with
  | ⟨0, _⟩ => show win0_6.index t (0 : Fin 2) * 4000 ≤ (i 0).val ∧ (i 0).val < win0_6.index t (0 : Fin 2) * 4000 + 4000; rw [(idx_facts t).2.2.2.2.2.2.2.2.2.2.2.2.1, htv]; omega
  | ⟨1, _⟩ => show win0_6.index t (1 : Fin 2) * 64 ≤ (i 1).val ∧ (i 1).val < win0_6.index t (1 : Fin 2) * 64 + 64; rw [(idx_facts t).2.2.2.2.2.2.2.2.2.2.2.2.2]; omega

/-- THE OUTPUT ARRAY of window 6 after the launch: the imaginary message parts of the entry arrays. -/
theorem final6 (c : Dev nD) : (dat0 V c).arrAt 6 cfg0.N
    = Spec.edgeIm (V c main_v6) (V c main_v13) (V c main_v29) (V c main_v30) (V c main_v31) :=
  (dat0 V c).arrAt_eq_of_cover 6 _ (fun t _ => flushed6_eq V c t) cover6

end

end Cert.KernelIdeal.Edge

end
-- ==== Proof.Region1.lean ====
/-
  The mixing launch, read as a value (first half: the body's arithmetic at an index).

  The grid has 100 points; point t takes rows 1000·t … 1000·t + 999 of the two node-sum matrices and of the two
  outputs, and the whole of the two 64×64 weights and the two 1×64 bias rows.  The body computes four products of a
  1000×64 block with a TRANSPOSED weight into a zero accumulator, each followed by a bias row broadcast down the rows.
  Over the extended reals a product into the zero accumulator is the plain sum over the contracted feature, a change
  of float format is the identity, and a transposed weight read at (k, j) is the weight at (j, k); so row r, feature j
  of the first stored value is (Σ_k a(r,k)·W1(j,k) + b1 j) − (Σ_k b(r,k)·W2(j,k) + b2 j), and of the second the same
  affine map by W2 of that first value plus the one by W1 of b.
-/
import proofs.«164345_j67585605369883_2_alg».proof.Proof.Gen.KernelIdeal.Frame
import proofs.«164345_j67585605369883_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mix

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem hz : (![0, 0] : Fin 2 → Nat) = fun _ => 0 := funext fun a => by fin_cases a <;> rfl

/-! ## The product's operand indices: output (r, j) and contracted k read the block at (r, k) and the operand at (k, j) -/

theorem lhs_0 (i : S1000x64.Idx) (q : dot_S1000x64_S64x64_S1000x64_1_0_0_1_n_n.contr.Idx) : (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhs_1 (i : S1000x64.Idx) (q : dot_S1000x64_S64x64_S1000x64_1_0_0_1_n_n.contr.Idx) : (dot_S1000x64_S64x64_S1000x64_1_0_0_1_n_n.lhsIdx i q 1).val = (q ⟨0, by decide⟩).val :=
  dot_S1000x64_S64x64_S1000x64_1_0_0_1_n_n.lhsIdx_val_of_single rfl i q
theorem rhs_0 (i : S1000x64.Idx) (q : dot_S1000x64_S64x64_S1000x64_1_0_0_1_n_n.contr.Idx) : (dot_S1000x64_S64x64_S1000x64_1_0_0_1_n_n.rhsIdx i q 0).val = (q ⟨0, by decide⟩).val :=
  dot_S1000x64_S64x64_S1000x64_1_0_0_1_n_n.rhsIdx_val_of_single rfl i q
theorem rhs_1 (i : S1000x64.Idx) (q : dot_S1000x64_S64x64_S1000x64_1_0_0_1_n_n.contr.Idx) : (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- A block times a transposed weight into the zero accumulator, at row `r`, feature `j`: the sum over the contracted
    feature `k` of the block at (r, k) times the weight at (j, k). -/
theorem prodT_at (z : FVec Ideal S1000x64 .bf16) (W : FVec Ideal S64x64 .bf16) (r : Fin 1000) (j : Fin 64) :
    matmul dot_S1000x64_S64x64_S1000x64_1_0_0_1_n_n none z (transpose S64x64 [1, 0] W transposes_S64x64_p1_0_S64x64) (constant S1000x64 .f32 0x00000000#32) (ix2 r j)
      = ∑ k : Fin 64, z (ix2 r k) * W (ix2 j k) := by
  simp only [matmul]
  rw [Ideal.matmul_constant_zero_apply, ← Equiv.sum_comp (ValueIdx.contrEquiv1 dot_S1000x64_S64x64_S1000x64_1_0_0_1_n_n 64 rfl rfl).symm]
  refine Finset.sum_congr rfl fun k _ => ?_
  have hk := ValueIdx.contrEquiv1_symm_val dot_S1000x64_S64x64_S1000x64_1_0_0_1_n_n 64 rfl rfl k
  have el : dot_S1000x64_S64x64_S1000x64_1_0_0_1_n_n.lhsIdx (ix2 r j) ((ValueIdx.contrEquiv1 dot_S1000x64_S64x64_S1000x64_1_0_0_1_n_n 64 rfl rfl).symm k) = ix2 r k := funext fun a => Fin.ext (by
    match a with
    | ⟨0, _⟩ => exact lhs_0 _ _
    | ⟨1, _⟩ => exact (lhs_1 _ _).trans hk)
  have er : dot_S1000x64_S64x64_S1000x64_1_0_0_1_n_n.rhsIdx (ix2 r j) ((ValueIdx.contrEquiv1 dot_S1000x64_S64x64_S1000x64_1_0_0_1_n_n 64 rfl rfl).symm k) = ix2 k j := funext fun a => Fin.ext (by
    match a with
    | ⟨0, _⟩ => exact (rhs_0 _ _).trans hk
    | ⟨1, _⟩ => exact rhs_1 _ _)
  rw [el, er, transpose_ix2_apply]

/-- A one-row block broadcast down the rows reads its feature's entry. -/
theorem bcast_row (y : FVec Ideal S1x64 .f32) (r : Fin 1000) (j : Fin 64) :
    broadcastTo S1000x64 y broadcasts_S1x64_S1000x64 (ix2 r j) = y (ix2 (0 : Fin 1) j) :=
  broadcastTo_apply y broadcasts_S1x64_S1000x64 (ix2 r j) (ix2 (0 : Fin 1) j) (fun a => match a with
    | ⟨0, _⟩ => by show (0 : Nat) = if (1 : Nat) = 1 then 0 else r.val; rw [if_pos rfl]
    | ⟨1, _⟩ => by show j.val = if (64 : Nat) = 1 then 0 else j.val; rw [if_neg (by decide)])

/-- The first stored value (the real part) at row `r`, feature `j` of a point's blocks. -/
theorem payRe_at (a b : Vec Ideal S1000x64 .f32) (W1 W2 : Vec Ideal S64x64 .f32) (b1 b2 : Vec Ideal S1x64 .f32) (r : Fin 1000) (j : Fin 64) :
    k1_pay6 (F := Ideal) a b W1 W2 b1 b2 (ix2 r j)
      = ((∑ k : Fin 64, a (ix2 r k) * W1 (ix2 j k)) + b1 (ix2 (0 : Fin 1) j))
        - ((∑ k : Fin 64, b (ix2 r k) * W2 (ix2 j k)) + b2 (ix2 (0 : Fin 1) j)) := by
  unfold k1_pay6 k1_pay1 k1_pay2 k1_pay3 k1_pay4 k1_pay5
  simp only [shapeCast_self]
  rw [subf_apply, addf_apply, addf_apply, prodT_at, prodT_at, bcast_row, bcast_row]
  rfl

/-- The second stored value (the imaginary part) at row `r`, feature `j`: the affine map by `W2` of the first stored
    value's row, plus that by `W1` of `b`'s row. -/
theorem payIm_at (a b : Vec Ideal S1000x64 .f32) (W1 W2 : Vec Ideal S64x64 .f32) (b1 b2 : Vec Ideal S1x64 .f32) (r : Fin 1000) (j : Fin 64) :
    k1_pay7 (F := Ideal) a b W1 W2 b1 b2 (ix2 r j)
      = ((∑ k : Fin 64, k1_pay6 (F := Ideal) a b W1 W2 b1 b2 (ix2 r k) * W2 (ix2 j k)) + b2 (ix2 (0 : Fin 1) j))
        + ((∑ k : Fin 64, b (ix2 r k) * W1 (ix2 j k)) + b1 (ix2 (0 : Fin 1) j)) := by
  unfold k1_pay7 k1_pay1 k1_pay2 k1_pay3 k1_pay4 k1_pay5
  simp only [shapeCast_self]
  rw [addf_apply, addf_apply, addf_apply, prodT_at, prodT_at, bcast_row, bcast_row]
  rfl

/-! ## The blocks of the whole arrays -/

/-- Every window's block index at point `t`: the four row-blocked windows at block row `t`, the weights and bias rows
    at their one block (decided over the 100 points). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The array row that row `r` of point `t`'s block is. -/
def nrow (t : Fin cfg1.N) (r : Fin 1000) : Fin 100000 :=
  ⟨t.val * 1000 + r.val, by have h1 := t.isLt; have h2 := r.isLt; have h : cfg1.N = 100 := N_1; omega⟩

section
variable (V : (c : Dev nD) → (b : Ref sig .tc) → Buf (Elt Ideal) ((c : Thread nD τ).loc b))

/-- Row `r`, feature `k` of point `t`'s block of window 0 is the array at row `1000·t + r`. -/
theorem blk0_at (c : Dev nD) (t : Fin cfg1.N) (r : Fin 1000) (k : Fin 64) :
    iblk1 V c 0 t (ix2 r k) = V c main_v35 (ix2 (nrow t r) k) := by
  show V c main_v35 (((cfg1.win 0).blk t).view.emb (ix2 r k)) = _
  refine congrArg (V c main_v35) (funext fun a => Fin.ext ?_)
  match a with
  | ⟨0, _⟩ => show win1_0.index t (0 : Fin 2) * 1000 + 1 * r.val = t.val * 1000 + r.val; rw [(idx_facts t).1]; omega
  | ⟨1, _⟩ => show win1_0.index t (1 : Fin 2) * 64 + 1 * k.val = k.val; rw [(idx_facts t).2.1]; omega

/-- Row `r`, feature `k` of point `t`'s block of window 1 is the array at row `1000·t + r`. -/
theorem blk1_at (c : Dev nD) (t : Fin cfg1.N) (r : Fin 1000) (k : Fin 64) :
    iblk1 V c 1 t (ix2 r k) = V c main_v38 (ix2 (nrow t r) k) := by
  show V c main_v38 (((cfg1.win 1).blk t).view.emb (ix2 r k)) = _
  refine congrArg (V c main_v38) (funext fun a => Fin.ext ?_)
  match a with
  | ⟨0, _⟩ => show win1_1.index t (0 : Fin 2) * 1000 + 1 * r.val = t.val * 1000 + r.val; rw [(idx_facts t).2.2.1]; omega
  | ⟨1, _⟩ => show win1_1.index t (1 : Fin 2) * 64 + 1 * k.val = k.val; rw [(idx_facts t).2.2.2.1]; omega

/-- Every point's block of the weight window 2 is the whole weight. -/
theorem blk2_at (c : Dev nD) (t : Fin cfg1.N) (j k : Fin 64) :
    iblk1 V c 2 t (ix2 j k) = V c main_arg7 (ix2 j k) := by
  show V c main_arg7 (((cfg1.win 2).blk t).view.emb (ix2 j k)) = _
  refine congrArg (V c main_arg7) (funext fun a => Fin.ext ?_)
  match a with
  | ⟨0, _⟩ => show win1_2.index t (0 : Fin 2) * 64 + 1 * j.val = j.val; rw [(idx_facts t).2.2.2.2.1]; omega
  | ⟨1, _⟩ => show win1_2.index t (1 : Fin 2) * 64 + 1 * k.val = k.val; rw [(idx_facts t).2.2.2.2.2.1]; omega

/-- Every point's block of the weight window 4 is the whole weight. -/
theorem blk4_at (c : Dev nD) (t : Fin cfg1.N) (j k : Fin 64) :
    iblk1 V c 4 t (ix2 j k) = V c main_arg9 (ix2 j k) := by
  show V c main_arg9 (((cfg1.win 4).blk t).view.emb (ix2 j k)) = _
  refine congrArg (V c main_arg9) (funext fun a => Fin.ext ?_)
  match a with
  | ⟨0, _⟩ => show win1_4.index t (0 : Fin 2) * 64 + 1 * j.val = j.val; rw [(idx_facts t).2.2.2.2.2.2.2.2.1]; omega
  | ⟨1, _⟩ => show win1_4.index t (1 : Fin 2) * 64 + 1 * k.val = k.val; rw [(idx_facts t).2.2.2.2.2.2.2.2.2.1]; omega

/-- Every point's block of the bias window 3 is the whole bias row. -/
theorem blk3_at (c : Dev nD) (t : Fin cfg1.N) (j : Fin 64) :
    iblk1 V c 3 t (ix2 (0 : Fin 1) j) = V c main_v39 (ix2 (0 : Fin 1) j) := by
  show V c main_v39 (((cfg1.win 3).blk t).view.emb (ix2 (0 : Fin 1) j)) = _
  refine congrArg (V c main_v39) (funext fun a => Fin.ext ?_)
  match a with
  | ⟨0, _⟩ => show win1_3.index t (0 : Fin 2) * 1 + 1 * 0 = 0; rw [(idx_facts t).2.2.2.2.2.2.1]
  | ⟨1, _⟩ => show win1_3.index t (1 : Fin 2) * 64 + 1 * j.val = j.val; rw [(idx_facts t).2.2.2.2.2.2.2.1]; omega

/-- Every point's block of the bias window 5 is the whole bias row. -/
theorem blk5_at (c : Dev nD) (t : Fin cfg1.N) (j : Fin 64) :
    iblk1 V c 5 t (ix2 (0 : Fin 1) j) = V c main_v40 (ix2 (0 : Fin 1) j) := by
  show V c main_v40 (((cfg1.win 5).blk t).view.emb (ix2 (0 : Fin 1) j)) = _
  refine congrArg (V c main_v40) (funext fun a => Fin.ext ?_)
  match a with
  | ⟨0, _⟩ => show win1_5.index t (0 : Fin 2) * 1 + 1 * 0 = 0; rw [(idx_facts t).2.2.2.2.2.2.2.2.2.2.1]
  | ⟨1, _⟩ => show win1_5.index t (1 : Fin 2) * 64 + 1 * j.val = j.val; rw [(idx_facts t).2.2.2.2.2.2.2.2.2.2.2.1]; omega

/-- Point `t`'s first stored value at row `r`, feature `j`, over the whole entry arrays. -/
theorem ptRe_at (c : Dev nD) (t : Fin cfg1.N) (r : Fin 1000) (j : Fin 64) :
    k1_pay6 (F := Ideal) (iblk1 V c 0 t) (iblk1 V c 1 t) (iblk1 V c 2 t) (iblk1 V c 4 t) (iblk1 V c 3 t) (iblk1 V c 5 t) (ix2 r j) = Spec.mixRowReAt (V c main_v35) (V c main_v38) (V c main_arg7) (V c main_arg9) (V c main_v39) (V c main_v40) (nrow t r) j := by
  refine (payRe_at (iblk1 V c 0 t) (iblk1 V c 1 t) (iblk1 V c 2 t) (iblk1 V c 4 t) (iblk1 V c 3 t) (iblk1 V c 5 t) r j).trans ?_
  simp only [blk0_at V c t, blk1_at V c t, blk2_at V c t, blk4_at V c t, blk3_at V c t, blk5_at V c t]
  rfl

/-- Point `t`'s second stored value at row `r`, feature `j`, over the whole entry arrays. -/
theorem ptIm_at (c : Dev nD) (t : Fin cfg1.N) (r : Fin 1000) (j : Fin 64) :
    k1_pay7 (F := Ideal) (iblk1 V c 0 t) (iblk1 V c 1 t) (iblk1 V c 2 t) (iblk1 V c 4 t) (iblk1 V c 3 t) (iblk1 V c 5 t) (ix2 r j) = Spec.mixRowImAt (V c main_v35) (V c main_v38) (V c main_arg7) (V c main_arg9) (V c main_v39) (V c main_v40) (nrow t r) j := by
  refine (payIm_at (iblk1 V c 0 t) (iblk1 V c 1 t) (iblk1 V c 2 t) (iblk1 V c 4 t) (iblk1 V c 3 t) (iblk1 V c 5 t) r j).trans ?_
  simp only [ptRe_at V c t, blk1_at V c t, blk2_at V c t, blk4_at V c t, blk3_at V c t, blk5_at V c t]
  rfl

/-- Where point `t`'s block of output window 6 sits in its array. -/
theorem emb6_at (t : Fin cfg1.N) (r : Fin 1000) (j : Fin 64) :
    ((cfg1.win 6).blk t).view.emb (ix2 r j) = ix2 (nrow t r) j := by
  funext a; apply Fin.ext
  match a with
  | ⟨0, _⟩ => show win1_6.index t (0 : Fin 2) * 1000 + 1 * r.val = t.val * 1000 + r.val; rw [(idx_facts t).2.2.2.2.2.2.2.2.2.2.2.2.1]; omega
  | ⟨1, _⟩ => show win1_6.index t (1 : Fin 2) * 64 + 1 * j.val = j.val; rw [(idx_facts t).2.2.2.2.2.2.2.2.2.2.2.2.2.1]; omega

/-- WHAT POINT `t` WRITES BACK through window 6 is block `t` of the real mixed features of the whole entry arrays. -/
theorem flushed6_eq (c : Dev nD) (t : Fin cfg1.N) :
    (dat1 V c).flushed 6 t = ((cfg1.win 6).blk t).view.read (Elt Ideal) (Spec.mixRowRe (V c main_v35) (V c main_v38) (V c main_arg7) (V c main_arg9) (V c main_v39) (V c main_v40)) := by
  show (cfg1.win 6).cut (grid1.coords t) ((dat1 V c).after 6 t) = _
  rw [after1_6]
  unfold out1_6
  rw [View.canon_unit_zero hz]
  simp only [View.ld_unit_zero (S := S1000x64) hz, View.ld_unit_zero (S := S64x64) hz, View.ld_unit_zero (S := S1x64) hz]
  funext i
  obtain ⟨r, j, rfl⟩ : ∃ (r : Fin 1000) (j : Fin 64), i = ix2 r j := ⟨i 0, i 1, eq_ix2 (n0 := 1000) (n1 := 64) i⟩
  refine (ptRe_at V c t r j).trans ?_
  show _ = Spec.mixRowRe (V c main_v35) (V c main_v38) (V c main_arg7) (V c main_arg9) (V c main_v39) (V c main_v40) (((cfg1.win 6).blk t).view.emb (ix2 r j))
  rw [emb6_at t r j]
  rfl

/-- An index of output 6's array is in point `t`'s block iff each coordinate is in the block's range. -/
theorem mem_blk6 (t : Fin cfg1.N) (i : S100000x64.Idx) :
    i ∈ ((cfg1.win 6).blk t).view.set ↔ ∀ a : Fin 2, win1_6.index t a * S1000x64.size a ≤ (i a).val ∧ (i a).val < win1_6.index t a * S1000x64.size a + S1000x64.size a := by
  show i ∈ ((View.whole main_v41_0).slice (win1_6.rect t)).set ↔ _
  rw [View.set_slice_whole, Rect.mem_set_unit]
  exact Iff.rfl

/-- Every index of output 6's array is in the block of the point its row falls in: row / 1000. -/
theorem cover6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 100 := N_1
  let t : Fin cfg1.N := ⟨(i 0).val / 1000, by rw [hN]; omega⟩
  have htv : t.val = (i 0).val / 1000 := rfl
  refine ⟨t, flush1_6 t, ?_⟩
  rw [mem_blk6]
  intro a
  match a with
  | ⟨0, _⟩ => show win1_6.index t (0 : Fin 2) * 1000 ≤ (i 0).val ∧ (i 0).val < win1_6.index t (0 : Fin 2) * 1000 + 1000; rw [(idx_facts t).2.2.2.2.2.2.2.2.2.2.2.2.1, htv]; omega
  | ⟨1, _⟩ => show win1_6.index t (1 : Fin 2) * 64 ≤ (i 1).val ∧ (i 1).val < win1_6.index t (1 : Fin 2) * 64 + 64; rw [(idx_facts t).2.2.2.2.2.2.2.2.2.2.2.2.2.1]; omega

/-- THE OUTPUT ARRAY of window 6 after the launch: the real mixed features of the entry arrays. -/
theorem final6 (c : Dev nD) : (dat1 V c).arrAt 6 cfg1.N = Spec.mixRowRe (V c main_v35) (V c main_v38) (V c main_arg7) (V c main_arg9) (V c main_v39) (V c main_v40) :=
  (dat1 V c).arrAt_eq_of_cover 6 _ (fun t _ => flushed6_eq V c t) cover6

/-- Where point `t`'s block of output window 7 sits in its array. -/
theorem emb7_at (t : Fin cfg1.N) (r : Fin 1000) (j : Fin 64) :
    ((cfg1.win 7).blk t).view.emb (ix2 r j) = ix2 (nrow t r) j := by
  funext a; apply Fin.ext
  match a with
  | ⟨0, _⟩ => show win1_7.index t (0 : Fin 2) * 1000 + 1 * r.val = t.val * 1000 + r.val; rw [(idx_facts t).2.2.2.2.2.2.2.2.2.2.2.2.2.2.1]; omega
  | ⟨1, _⟩ => show win1_7.index t (1 : Fin 2) * 64 + 1 * j.val = j.val; rw [(idx_facts t).2.2.2.2.2.2.2.2.2.2.2.2.2.2.2]; omega

/-- WHAT POINT `t` WRITES BACK through window 7 is block `t` of the imaginary mixed features of the whole entry arrays. -/
theorem flushed7_eq (c : Dev nD) (t : Fin cfg1.N) :
    (dat1 V c).flushed 7 t = ((cfg1.win 7).blk t).view.read (Elt Ideal) (Spec.mixRowIm (V c main_v35) (V c main_v38) (V c main_arg7) (V c main_arg9) (V c main_v39) (V c main_v40)) := by
  show (cfg1.win 7).cut (grid1.coords t) ((dat1 V c).after 7 t) = _
  rw [after1_7]
  unfold out1_7
  rw [View.canon_unit_zero hz]
  simp only [View.ld_unit_zero (S := S1000x64) hz, View.ld_unit_zero (S := S64x64) hz, View.ld_unit_zero (S := S1x64) hz]
  funext i
  obtain ⟨r, j, rfl⟩ : ∃ (r : Fin 1000) (j : Fin 64), i = ix2 r j := ⟨i 0, i 1, eq_ix2 (n0 := 1000) (n1 := 64) i⟩
  refine (ptIm_at V c t r j).trans ?_
  show _ = Spec.mixRowIm (V c main_v35) (V c main_v38) (V c main_arg7) (V c main_arg9) (V c main_v39) (V c main_v40) (((cfg1.win 7).blk t).view.emb (ix2 r j))
  rw [emb7_at t r j]
  rfl

/-- An index of output 7's array is in point `t`'s block iff each coordinate is in the block's range. -/
theorem mem_blk7 (t : Fin cfg1.N) (i : S100000x64.Idx) :
    i ∈ ((cfg1.win 7).blk t).view.set ↔ ∀ a : Fin 2, win1_7.index t a * S1000x64.size a ≤ (i a).val ∧ (i a).val < win1_7.index t a * S1000x64.size a + S1000x64.size a := by
  show i ∈ ((View.whole main_v41_1).slice (win1_7.rect t)).set ↔ _
  rw [View.set_slice_whole, Rect.mem_set_unit]
  exact Iff.rfl

/-- Every index of output 7's array is in the block of the point its row falls in: row / 1000. -/
theorem cover7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 100 := N_1
  let t : Fin cfg1.N := ⟨(i 0).val / 1000, by rw [hN]; omega⟩
  have htv : t.val = (i 0).val / 1000 := rfl
  refine ⟨t, flush1_7 t, ?_⟩
  rw [mem_blk7]
  intro a
  match a with
  | ⟨0, _⟩ => show win1_7.index t (0 : Fin 2) * 1000 ≤ (i 0).val ∧ (i 0).val < win1_7.index t (0 : Fin 2) * 1000 + 1000; rw [(idx_facts t).2.2.2.2.2.2.2.2.2.2.2.2.2.2.1, htv]; omega
  | ⟨1, _⟩ => show win1_7.index t (1 : Fin 2) * 64 ≤ (i 1).val ∧ (i 1).val < win1_7.index t (1 : Fin 2) * 64 + 64; rw [(idx_facts t).2.2.2.2.2.2.2.2.2.2.2.2.2.2.2]; omega

/-- THE OUTPUT ARRAY of window 7 after the launch: the imaginary mixed features of the entry arrays. -/
theorem final7 (c : Dev nD) : (dat1 V c).arrAt 7 cfg1.N = Spec.mixRowIm (V c main_v35) (V c main_v38) (V c main_arg7) (V c main_arg9) (V c main_v39) (V c main_v40) :=
  (dat1 V c).arrAt_eq_of_cover 7 _ (fun t _ => flushed7_eq V c t) cover7

end

end Cert.KernelIdeal.Mix

end
-- ==== Proof.KernelValue.lean ====
/-
  The idealized kernel's two results as functions of the argument arrays.

  Walking the four segments of @main backwards: a result is what the mixing launch leaves (the mixed features of its
  entry arrays); its two row-blocked entry arrays are the scatter-adds, by the destination index, of what the
  edge-message launch leaves (the message parts of ITS entry arrays), into a zero array; the weights are the argument
  weights, the bias rows the argument biases reshaped to one row; and the edge launch's entry arrays are the rows of
  the two feature matrices gathered at the source index, and the degree products and the two edge weights reshaped to
  one column.  The gathers and the scatter-add are kept as the host's own operations: the reference applies the same
  ones to the same arrays, so they are never opened.
-/
import proofs.«164345_j67585605369883_2_alg».proof.Proof.KernelRun
import proofs.«164345_j67585605369883_2_alg».proof.Proof.Region0
import proofs.«164345_j67585605369883_2_alg».proof.Proof.Region1
import proofs.«164345_j67585605369883_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx Idealize.ShloMosaic.StableHlo

/-! ## The host's array operations of this program, named -/

/-- An index vector with its negative entries wrapped by the node count, as a one-column matrix of start indices. -/
def wrapCol (x : (⟨S1600000, .i32⟩ : BufTy).Contents (Elt Ideal)) : (⟨S1600000x1, .i32⟩ : BufTy).Contents (Elt Ideal) :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- The rows of a node feature matrix gathered at an index vector. -/
def rowsAt (h : (⟨S100000x64, .f32⟩ : BufTy).Contents (Elt Ideal)) (x : (⟨S1600000, .i32⟩ : BufTy).Contents (Elt Ideal)) : (⟨S1600000x64, .f32⟩ : BufTy).Contents (Elt Ideal) :=
  Host.gather gather_S100000x64_S1600000x1_S1600000x64_1_0_n_n_0_1_164 h (wrapCol x)

/-- The entries of the degree vector gathered at an index vector. -/
def degAt (d : (⟨S100000, .f32⟩ : BufTy).Contents (Elt Ideal)) (x : (⟨S1600000, .i32⟩ : BufTy).Contents (Elt Ideal)) : (⟨S1600000, .f32⟩ : BufTy).Contents (Elt Ideal) :=
  Host.gather gather_S100000_S1600000x1_S1600000_n_0_n_n_0_1_1 d (wrapCol x)

/-- Per edge, the product of the two endpoint degrees: destination first. -/
def degProd (d : (⟨S100000, .f32⟩ : BufTy).Contents (Elt Ideal)) (x5 x6 : (⟨S1600000, .i32⟩ : BufTy).Contents (Elt Ideal)) : (⟨S1600000, .f32⟩ : BufTy).Contents (Elt Ideal) :=
  (mulf (degAt d x6 : FVec Ideal S1600000 .f32) (degAt d x5 : FVec Ideal S1600000 .f32) : FVec Ideal S1600000 .f32)

/-- The per-node sums of per-edge rows: a scatter-add by the destination index into a zero array. -/
def nodeSum (x6 : (⟨S1600000, .i32⟩ : BufTy).Contents (Elt Ideal)) (u : (⟨S1600000x64, .f32⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 x6) u

/-- The real parts of the layer's output, of the eleven argument arrays. -/
def outRe (x0 x1 : (⟨S100000x64, .f32⟩ : BufTy).Contents (Elt Ideal)) (x2 : (⟨S100000, .f32⟩ : BufTy).Contents (Elt Ideal)) (x3 x4 : (⟨S1600000, .f32⟩ : BufTy).Contents (Elt Ideal))
    (x5 x6 : (⟨S1600000, .i32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    (⟨S100000x64, .f32⟩ : BufTy).Contents (Elt Ideal) :=
  Spec.mixRe (nodeSum x6 (Spec.msgRe (rowsAt x0 x5) (rowsAt x1 x5) (degProd x2 x5 x6) x3 x4))
    (nodeSum x6 (Spec.msgIm (rowsAt x0 x5) (rowsAt x1 x5) (degProd x2 x5 x6) x3 x4)) x7 x9 x8 x10

/-- The imaginary parts of the layer's output, of the eleven argument arrays. -/
def outIm (x0 x1 : (⟨S100000x64, .f32⟩ : BufTy).Contents (Elt Ideal)) (x2 : (⟨S100000, .f32⟩ : BufTy).Contents (Elt Ideal)) (x3 x4 : (⟨S1600000, .f32⟩ : BufTy).Contents (Elt Ideal))
    (x5 x6 : (⟨S1600000, .i32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    (⟨S100000x64, .f32⟩ : BufTy).Contents (Elt Ideal) :=
  Spec.mixIm (nodeSum x6 (Spec.msgRe (rowsAt x0 x5) (rowsAt x1 x5) (degProd x2 x5 x6) x3 x4))
    (nodeSum x6 (Spec.msgIm (rowsAt x0 x5) (rowsAt x1 x5) (degProd x2 x5 x6) x3 x4)) x7 x9 x8 x10

/-! ## Two reshapes read at an index -/

/-- An edge vector reshaped to one column is that vector read at the row. -/
theorem cast_col (x : (⟨S1600000, .f32⟩ : BufTy).Contents (Elt Ideal)) : shapeCast S1600000x1 x shapeCasts_S1600000_S1600000x1 = Spec.col x := by
  funext i
  refine shapeCast_apply x shapeCasts_S1600000_S1600000x1 i (ix1 (i 0)) ?_
  rw [Shape.rowMajor_val_one, Shape.rowMajor_val_two]
  have h1 : (i 1).val < 1 := (i 1).isLt
  show (i 0).val = (i 0).val * 1 + (i 1).val
  omega

/-- A bias vector reshaped to one row is that vector read at the feature. -/
theorem cast_row (x : (⟨S64, .f32⟩ : BufTy).Contents (Elt Ideal)) : shapeCast S1x64 x shapeCasts_S64_S1x64 = Spec.rowb x := by
  funext i
  refine shapeCast_apply x shapeCasts_S64_S1x64 i (ix1 (i 1)) ?_
  rw [Shape.rowMajor_val_one, Shape.rowMajor_val_two]
  have h0 : (i 0).val < 1 := (i 0).isLt
  show (i 1).val = (i 0).val * 64 + (i 1).val
  omega

section
variable (m : (ℓ : Loc nD τ sig) → Buf (Elt Ideal) ℓ) (ρ : Dev nD → PrngReg)

/-! ## The arguments, at the boundaries the launches are entered from -/

theorem W0_arg0 (c : Dev nD) : W0 m ρ c (Proc.devRef .tc main_arg0) = (m ((c : Thread nD τ).loc main_arg0)) := rfl
theorem W1_arg0 (c : Dev nD) : W1 m ρ c (Proc.devRef .tc main_arg0) = (m ((c : Thread nD τ).loc main_arg0)) := by
  show StableHlo.after hostOps0 (W0 m ρ c) (Proc.devRef .tc main_arg0) = _
  after_results_simp
theorem W2_arg0 (c : Dev nD) : W2 m ρ c (Proc.devRef .tc main_arg0) = (m ((c : Thread nD τ).loc main_arg0)) :=
  (W2_of_ne m ρ c main_arg0 (by decide)).trans (W1_arg0 m ρ c)

theorem W0_arg1 (c : Dev nD) : W0 m ρ c (Proc.devRef .tc main_arg1) = (m ((c : Thread nD τ).loc main_arg1)) := rfl
theorem W1_arg1 (c : Dev nD) : W1 m ρ c (Proc.devRef .tc main_arg1) = (m ((c : Thread nD τ).loc main_arg1)) := by
  show StableHlo.after hostOps0 (W0 m ρ c) (Proc.devRef .tc main_arg1) = _
  after_results_simp
theorem W2_arg1 (c : Dev nD) : W2 m ρ c (Proc.devRef .tc main_arg1) = (m ((c : Thread nD τ).loc main_arg1)) :=
  (W2_of_ne m ρ c main_arg1 (by decide)).trans (W1_arg1 m ρ c)

theorem W0_arg2 (c : Dev nD) : W0 m ρ c (Proc.devRef .tc main_arg2) = (m ((c : Thread nD τ).loc main_arg2)) := rfl
theorem W1_arg2 (c : Dev nD) : W1 m ρ c (Proc.devRef .tc main_arg2) = (m ((c : Thread nD τ).loc main_arg2)) := by
  show StableHlo.after hostOps0 (W0 m ρ c) (Proc.devRef .tc main_arg2) = _
  after_results_simp
theorem W2_arg2 (c : Dev nD) : W2 m ρ c (Proc.devRef .tc main_arg2) = (m ((c : Thread nD τ).loc main_arg2)) :=
  (W2_of_ne m ρ c main_arg2 (by decide)).trans (W1_arg2 m ρ c)

theorem W0_arg3 (c : Dev nD) : W0 m ρ c (Proc.devRef .tc main_arg3) = (m ((c : Thread nD τ).loc main_arg3)) := rfl
theorem W1_arg3 (c : Dev nD) : W1 m ρ c (Proc.devRef .tc main_arg3) = (m ((c : Thread nD τ).loc main_arg3)) := by
  show StableHlo.after hostOps0 (W0 m ρ c) (Proc.devRef .tc main_arg3) = _
  after_results_simp
theorem W2_arg3 (c : Dev nD) : W2 m ρ c (Proc.devRef .tc main_arg3) = (m ((c : Thread nD τ).loc main_arg3)) :=
  (W2_of_ne m ρ c main_arg3 (by decide)).trans (W1_arg3 m ρ c)

theorem W0_arg4 (c : Dev nD) : W0 m ρ c (Proc.devRef .tc main_arg4) = (m ((c : Thread nD τ).loc main_arg4)) := rfl
theorem W1_arg4 (c : Dev nD) : W1 m ρ c (Proc.devRef .tc main_arg4) = (m ((c : Thread nD τ).loc main_arg4)) := by
  show StableHlo.after hostOps0 (W0 m ρ c) (Proc.devRef .tc main_arg4) = _
  after_results_simp
theorem W2_arg4 (c : Dev nD) : W2 m ρ c (Proc.devRef .tc main_arg4) = (m ((c : Thread nD τ).loc main_arg4)) :=
  (W2_of_ne m ρ c main_arg4 (by decide)).trans (W1_arg4 m ρ c)

theorem W0_arg5 (c : Dev nD) : W0 m ρ c (Proc.devRef .tc main_arg5) = (m ((c : Thread nD τ).loc main_arg5)) := rfl
theorem W1_arg5 (c : Dev nD) : W1 m ρ c (Proc.devRef .tc main_arg5) = (m ((c : Thread nD τ).loc main_arg5)) := by
  show StableHlo.after hostOps0 (W0 m ρ c) (Proc.devRef .tc main_arg5) = _
  after_results_simp
theorem W2_arg5 (c : Dev nD) : W2 m ρ c (Proc.devRef .tc main_arg5) = (m ((c : Thread nD τ).loc main_arg5)) :=
  (W2_of_ne m ρ c main_arg5 (by decide)).trans (W1_arg5 m ρ c)

theorem W0_arg6 (c : Dev nD) : W0 m ρ c (Proc.devRef .tc main_arg6) = (m ((c : Thread nD τ).loc main_arg6)) := rfl
theorem W1_arg6 (c : Dev nD) : W1 m ρ c (Proc.devRef .tc main_arg6) = (m ((c : Thread nD τ).loc main_arg6)) := by
  show StableHlo.after hostOps0 (W0 m ρ c) (Proc.devRef .tc main_arg6) = _
  after_results_simp
theorem W2_arg6 (c : Dev nD) : W2 m ρ c (Proc.devRef .tc main_arg6) = (m ((c : Thread nD τ).loc main_arg6)) :=
  (W2_of_ne m ρ c main_arg6 (by decide)).trans (W1_arg6 m ρ c)

theorem W0_arg7 (c : Dev nD) : W0 m ρ c (Proc.devRef .tc main_arg7) = (m ((c : Thread nD τ).loc main_arg7)) := rfl
theorem W1_arg7 (c : Dev nD) : W1 m ρ c (Proc.devRef .tc main_arg7) = (m ((c : Thread nD τ).loc main_arg7)) := by
  show StableHlo.after hostOps0 (W0 m ρ c) (Proc.devRef .tc main_arg7) = _
  after_results_simp
theorem W2_arg7 (c : Dev nD) : W2 m ρ c (Proc.devRef .tc main_arg7) = (m ((c : Thread nD τ).loc main_arg7)) :=
  (W2_of_ne m ρ c main_arg7 (by decide)).trans (W1_arg7 m ρ c)

theorem W0_arg8 (c : Dev nD) : W0 m ρ c (Proc.devRef .tc main_arg8) = (m ((c : Thread nD τ).loc main_arg8)) := rfl
theorem W1_arg8 (c : Dev nD) : W1 m ρ c (Proc.devRef .tc main_arg8) = (m ((c : Thread nD τ).loc main_arg8)) := by
  show StableHlo.after hostOps0 (W0 m ρ c) (Proc.devRef .tc main_arg8) = _
  after_results_simp
theorem W2_arg8 (c : Dev nD) : W2 m ρ c (Proc.devRef .tc main_arg8) = (m ((c : Thread nD τ).loc main_arg8)) :=
  (W2_of_ne m ρ c main_arg8 (by decide)).trans (W1_arg8 m ρ c)

theorem W0_arg9 (c : Dev nD) : W0 m ρ c (Proc.devRef .tc main_arg9) = (m ((c : Thread nD τ).loc main_arg9)) := rfl
theorem W1_arg9 (c : Dev nD) : W1 m ρ c (Proc.devRef .tc main_arg9) = (m ((c : Thread nD τ).loc main_arg9)) := by
  show StableHlo.after hostOps0 (W0 m ρ c) (Proc.devRef .tc main_arg9) = _
  after_results_simp
theorem W2_arg9 (c : Dev nD) : W2 m ρ c (Proc.devRef .tc main_arg9) = (m ((c : Thread nD τ).loc main_arg9)) :=
  (W2_of_ne m ρ c main_arg9 (by decide)).trans (W1_arg9 m ρ c)

theorem W0_arg10 (c : Dev nD) : W0 m ρ c (Proc.devRef .tc main_arg10) = (m ((c : Thread nD τ).loc main_arg10)) := rfl
theorem W1_arg10 (c : Dev nD) : W1 m ρ c (Proc.devRef .tc main_arg10) = (m ((c : Thread nD τ).loc main_arg10)) := by
  show StableHlo.after hostOps0 (W0 m ρ c) (Proc.devRef .tc main_arg10) = _
  after_results_simp
theorem W2_arg10 (c : Dev nD) : W2 m ρ c (Proc.devRef .tc main_arg10) = (m ((c : Thread nD τ).loc main_arg10)) :=
  (W2_of_ne m ρ c main_arg10 (by decide)).trans (W1_arg10 m ρ c)

/-! ## The edge launch's entry arrays -/

theorem V1_hr (c : Dev nD) : V1 m ρ c main_v6 = rowsAt (m ((c : Thread nD τ).loc main_arg0)) (m ((c : Thread nD τ).loc main_arg5)) := by
  show StableHlo.after hostOps0 (W0 m ρ c) (Proc.devRef .tc main_v6) = _
  after_results_simp
  rfl
theorem V1_hi (c : Dev nD) : V1 m ρ c main_v13 = rowsAt (m ((c : Thread nD τ).loc main_arg1)) (m ((c : Thread nD τ).loc main_arg5)) := by
  show StableHlo.after hostOps0 (W0 m ρ c) (Proc.devRef .tc main_v13) = _
  after_results_simp
  rfl
theorem V1_dd (c : Dev nD) : V1 m ρ c main_v29 = Spec.col (degProd (m ((c : Thread nD τ).loc main_arg2)) (m ((c : Thread nD τ).loc main_arg5)) (m ((c : Thread nD τ).loc main_arg6))) := by
  refine Eq.trans ?_ (cast_col _)
  show StableHlo.after hostOps0 (W0 m ρ c) (Proc.devRef .tc main_v29) = _
  after_results_simp
  rfl
theorem V1_wr (c : Dev nD) : V1 m ρ c main_v30 = Spec.col (m ((c : Thread nD τ).loc main_arg3)) := by
  refine Eq.trans ?_ (cast_col _)
  show StableHlo.after hostOps0 (W0 m ρ c) (Proc.devRef .tc main_v30) = _
  after_results_simp
  rfl
theorem V1_wi (c : Dev nD) : V1 m ρ c main_v31 = Spec.col (m ((c : Thread nD τ).loc main_arg4)) := by
  refine Eq.trans ?_ (cast_col _)
  show StableHlo.after hostOps0 (W0 m ρ c) (Proc.devRef .tc main_v31) = _
  after_results_simp
  rfl

/-! ## What the edge launch leaves -/

theorem W2_mr (c : Dev nD) : W2 m ρ c (Proc.devRef .tc main_v32_0) = Spec.msgRe (rowsAt (m ((c : Thread nD τ).loc main_arg0)) (m ((c : Thread nD τ).loc main_arg5))) (rowsAt (m ((c : Thread nD τ).loc main_arg1)) (m ((c : Thread nD τ).loc main_arg5))) (degProd (m ((c : Thread nD τ).loc main_arg2)) (m ((c : Thread nD τ).loc main_arg5)) (m ((c : Thread nD τ).loc main_arg6))) (m ((c : Thread nD τ).loc main_arg3)) (m ((c : Thread nD τ).loc main_arg4)) := by
  refine (W2_arr m ρ c 5).trans ((Edge.final5 (V1 m ρ) c).trans ?_)
  rw [V1_hr, V1_hi, V1_dd, V1_wr, V1_wi, Spec.edgeRe_col]
theorem W2_mi (c : Dev nD) : W2 m ρ c (Proc.devRef .tc main_v32_1) = Spec.msgIm (rowsAt (m ((c : Thread nD τ).loc main_arg0)) (m ((c : Thread nD τ).loc main_arg5))) (rowsAt (m ((c : Thread nD τ).loc main_arg1)) (m ((c : Thread nD τ).loc main_arg5))) (degProd (m ((c : Thread nD τ).loc main_arg2)) (m ((c : Thread nD τ).loc main_arg5)) (m ((c : Thread nD τ).loc main_arg6))) (m ((c : Thread nD τ).loc main_arg3)) (m ((c : Thread nD τ).loc main_arg4)) := by
  refine (W2_arr m ρ c 6).trans ((Edge.final6 (V1 m ρ) c).trans ?_)
  rw [V1_hr, V1_hi, V1_dd, V1_wr, V1_wi, Spec.edgeIm_col]

/-! ## The mixing launch's entry arrays -/

theorem V3_zr (c : Dev nD) : V3 m ρ c main_v35 = nodeSum (m ((c : Thread nD τ).loc main_arg6)) (Spec.msgRe (rowsAt (m ((c : Thread nD τ).loc main_arg0)) (m ((c : Thread nD τ).loc main_arg5))) (rowsAt (m ((c : Thread nD τ).loc main_arg1)) (m ((c : Thread nD τ).loc main_arg5))) (degProd (m ((c : Thread nD τ).loc main_arg2)) (m ((c : Thread nD τ).loc main_arg5)) (m ((c : Thread nD τ).loc main_arg6))) (m ((c : Thread nD τ).loc main_arg3)) (m ((c : Thread nD τ).loc main_arg4))) := by
  rw [← W2_mr m ρ c, ← W2_arg6 m ρ c]
  show StableHlo.after hostOps1 (W2 m ρ c) (Proc.devRef .tc main_v35) = _
  after_results
  rfl
theorem V3_zi (c : Dev nD) : V3 m ρ c main_v38 = nodeSum (m ((c : Thread nD τ).loc main_arg6)) (Spec.msgIm (rowsAt (m ((c : Thread nD τ).loc main_arg0)) (m ((c : Thread nD τ).loc main_arg5))) (rowsAt (m ((c : Thread nD τ).loc main_arg1)) (m ((c : Thread nD τ).loc main_arg5))) (degProd (m ((c : Thread nD τ).loc main_arg2)) (m ((c : Thread nD τ).loc main_arg5)) (m ((c : Thread nD τ).loc main_arg6))) (m ((c : Thread nD τ).loc main_arg3)) (m ((c : Thread nD τ).loc main_arg4))) := by
  rw [← W2_mi m ρ c, ← W2_arg6 m ρ c]
  show StableHlo.after hostOps1 (W2 m ρ c) (Proc.devRef .tc main_v38) = _
  after_results
  rfl
theorem V3_W1 (c : Dev nD) : V3 m ρ c main_arg7 = (m ((c : Thread nD τ).loc main_arg7)) := by
  rw [← W2_arg7 m ρ c]
  show StableHlo.after hostOps1 (W2 m ρ c) (Proc.devRef .tc main_arg7) = _
  after_results
theorem V3_W2 (c : Dev nD) : V3 m ρ c main_arg9 = (m ((c : Thread nD τ).loc main_arg9)) := by
  rw [← W2_arg9 m ρ c]
  show StableHlo.after hostOps1 (W2 m ρ c) (Proc.devRef .tc main_arg9) = _
  after_results
theorem V3_b1 (c : Dev nD) : V3 m ρ c main_v39 = Spec.rowb (m ((c : Thread nD τ).loc main_arg8)) := by
  rw [← cast_row, ← W2_arg8 m ρ c]
  show StableHlo.after hostOps1 (W2 m ρ c) (Proc.devRef .tc main_v39) = _
  after_results
  rfl
theorem V3_b2 (c : Dev nD) : V3 m ρ c main_v40 = Spec.rowb (m ((c : Thread nD τ).loc main_arg10)) := by
  rw [← cast_row, ← W2_arg10 m ρ c]
  show StableHlo.after hostOps1 (W2 m ρ c) (Proc.devRef .tc main_v40) = _
  after_results
  rfl

/-! ## The results -/

/-- Result 0 at the last boundary: the real parts of the layer's output of the argument arrays. -/
theorem res0 (c : Dev nD) : W4 m ρ c (Proc.devRef .tc main_v41_0) = outRe (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 6).trans ((Mix.final6 (V3 m ρ) c).trans ?_)
  rw [V3_zr, V3_zi, V3_W1, V3_W2, V3_b1, V3_b2, Spec.mixRowRe_rowb]
  rfl

/-- Result 1 at the last boundary: the imaginary parts of the layer's output of the argument arrays. -/
theorem res1 (c : Dev nD) : W4 m ρ c (Proc.devRef .tc main_v41_1) = outIm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 7).trans ((Mix.final7 (V3 m ρ) c).trans ?_)
  rw [V3_zr, V3_zi, V3_W1, V3_W2, V3_b1, V3_b2, Spec.mixRowIm_rowb]
  rfl

/-- THE RUN of the idealized kernel with both results at their functions of the arguments, the arguments unchanged. -/
theorem run : θ_run defs (onTc (τ := τ) (main (F := Ideal))) ⟨m, fun _ => 0, ρ⟩ (fun r => ∀ c : Dev nD,
      r.2.mem ((c.tc : Thread nD τ).loc main_v41_0) = outRe (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v41_1) = outIm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (res0 m ρ c), (h c).2.1.trans (res1 m ρ c), (h c).2.2⟩)
    (Named.run_named m ρ)

end

end Cert.KernelIdeal.Whole

end
-- ==== Proof.RefValue.lean ====
/-
  The idealized reference's two results as the same functions of its own gathers and scatter-adds.

  Read one operation at a time: a result element is a difference or a sum of two affine terms; an affine term is a
  `dot_general` against a transposed weight, which over the extended reals is the sum over the contracted feature of
  the left operand at (n, k) times the weight at (j, k), plus a bias broadcast first to one row and then down the rows;
  a message part is a difference or a sum of two products of a coefficient, broadcast first to one column and then
  along the features, with a gathered feature row.  The gathers and the scatter-adds are not opened.
-/
import proofs.«164345_j67585605369883_2_alg».proof.Proof.Gen.ReferenceIdeal.Read
import proofs.«164345_j67585605369883_2_alg».proof.Proof.Spec
import Idealize.ShloMosaic.Lib.ValueIdx

set_option maxRecDepth 16384

noncomputable section

namespace Cert.ReferenceIdeal.RefValue

open Cert.ReferenceIdeal Cert.ReferenceIdeal.Read
open Idealize.ShloMosaic Idealize.ShloMosaic.TcCoe Idealize.SL.Sem Idealize.ShloMosaic.ValueIdx

/-! ## The composed index functions of the layout operations, at coordinates -/

theorem lidx50 (n : Fin 100000) (j k : Fin 64) : lidx_main_v50 (ix2 n j) k = ix2 n k :=
  funext fun a => Fin.ext (by match a with | ⟨0, _⟩ => rfl | ⟨1, _⟩ => rfl)
theorem ridx50 (n : Fin 100000) (j k : Fin 64) : ridx_main_v50 (ix2 n j) k = ix2 k j :=
  funext fun a => Fin.ext (by match a with | ⟨0, _⟩ => rfl | ⟨1, _⟩ => rfl)
theorem lidx55 (n : Fin 100000) (j k : Fin 64) : lidx_main_v55 (ix2 n j) k = ix2 n k :=
  funext fun a => Fin.ext (by match a with | ⟨0, _⟩ => rfl | ⟨1, _⟩ => rfl)
theorem ridx55 (n : Fin 100000) (j k : Fin 64) : ridx_main_v55 (ix2 n j) k = ix2 k j :=
  funext fun a => Fin.ext (by match a with | ⟨0, _⟩ => rfl | ⟨1, _⟩ => rfl)
theorem lidx61 (n : Fin 100000) (j k : Fin 64) : lidx_main_v61 (ix2 n j) k = ix2 n k :=
  funext fun a => Fin.ext (by match a with | ⟨0, _⟩ => rfl | ⟨1, _⟩ => rfl)
theorem ridx61 (n : Fin 100000) (j k : Fin 64) : ridx_main_v61 (ix2 n j) k = ix2 k j :=
  funext fun a => Fin.ext (by match a with | ⟨0, _⟩ => rfl | ⟨1, _⟩ => rfl)
theorem lidx66 (n : Fin 100000) (j k : Fin 64) : lidx_main_v66 (ix2 n j) k = ix2 n k :=
  funext fun a => Fin.ext (by match a with | ⟨0, _⟩ => rfl | ⟨1, _⟩ => rfl)
theorem ridx66 (n : Fin 100000) (j k : Fin 64) : ridx_main_v66 (ix2 n j) k = ix2 k j :=
  funext fun a => Fin.ext (by match a with | ⟨0, _⟩ => rfl | ⟨1, _⟩ => rfl)

theorem tidx49 (j k : Fin 64) : idx_main_v49 (ix2 k j) = ix2 j k :=
  funext fun a => Fin.ext (by match a with | ⟨0, _⟩ => rfl | ⟨1, _⟩ => rfl)
theorem tidx54 (j k : Fin 64) : idx_main_v54 (ix2 k j) = ix2 j k :=
  funext fun a => Fin.ext (by match a with | ⟨0, _⟩ => rfl | ⟨1, _⟩ => rfl)
theorem tidx60 (j k : Fin 64) : idx_main_v60 (ix2 k j) = ix2 j k :=
  funext fun a => Fin.ext (by match a with | ⟨0, _⟩ => rfl | ⟨1, _⟩ => rfl)
theorem tidx65 (j k : Fin 64) : idx_main_v65 (ix2 k j) = ix2 j k :=
  funext fun a => Fin.ext (by match a with | ⟨0, _⟩ => rfl | ⟨1, _⟩ => rfl)

theorem bidx52 (n : Fin 100000) (j : Fin 64) : idx_main_v51 (idx_main_v52 (ix2 n j)) = ix1 j :=
  funext fun a => Fin.ext (by match a with | ⟨0, _⟩ => rfl)
theorem bidx57 (n : Fin 100000) (j : Fin 64) : idx_main_v56 (idx_main_v57 (ix2 n j)) = ix1 j :=
  funext fun a => Fin.ext (by match a with | ⟨0, _⟩ => rfl)
theorem bidx63 (n : Fin 100000) (j : Fin 64) : idx_main_v62 (idx_main_v63 (ix2 n j)) = ix1 j :=
  funext fun a => Fin.ext (by match a with | ⟨0, _⟩ => rfl)
theorem bidx68 (n : Fin 100000) (j : Fin 64) : idx_main_v67 (idx_main_v68 (ix2 n j)) = ix1 j :=
  funext fun a => Fin.ext (by match a with | ⟨0, _⟩ => rfl)

theorem cidx33 (e : Fin 1600000) (k : Fin 64) : idx_main_v16 (idx_main_v33 (ix2 e k)) = ix1 e :=
  funext fun a => Fin.ext (by match a with | ⟨0, _⟩ => rfl)
theorem cidx35 (e : Fin 1600000) (k : Fin 64) : idx_main_v18 (idx_main_v35 (ix2 e k)) = ix1 e :=
  funext fun a => Fin.ext (by match a with | ⟨0, _⟩ => rfl)
theorem cidx38 (e : Fin 1600000) (k : Fin 64) : idx_main_v18 (idx_main_v38 (ix2 e k)) = ix1 e :=
  funext fun a => Fin.ext (by match a with | ⟨0, _⟩ => rfl)
theorem cidx40 (e : Fin 1600000) (k : Fin 64) : idx_main_v16 (idx_main_v40 (ix2 e k)) = ix1 e :=
  funext fun a => Fin.ext (by match a with | ⟨0, _⟩ => rfl)

/-! ## The message parts -/

/-- The real message parts: `%37` of the reference. -/
theorem msgRe_ref (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) :
    val_main_v37 (F := Ideal) x0 x1 x2 x3 x4 x5 x6
      = Spec.msgRe (val_main_v25 (F := Ideal) x0 x5) (val_main_v32 (F := Ideal) x1 x5) (val_main_v14 (F := Ideal) x2 x5 x6) x3 x4 := by
  funext i
  obtain ⟨e, k, rfl⟩ : ∃ (e : Fin 1600000) (k : Fin 64), i = ix2 e k := ⟨i 0, i 1, eq_ix2 (n0 := 1600000) (n1 := 64) i⟩
  rw [val_main_v37_apply, val_main_v34_apply, val_main_v36_apply, val_main_v33_apply, val_main_v35_apply,
    val_main_v16_apply, val_main_v18_apply, val_main_v15_apply, val_main_v17_apply, cidx33, cidx35]
  rfl

/-- The imaginary message parts: `%42` of the reference. -/
theorem msgIm_ref (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) :
    val_main_v42 (F := Ideal) x0 x1 x2 x3 x4 x5 x6
      = Spec.msgIm (val_main_v25 (F := Ideal) x0 x5) (val_main_v32 (F := Ideal) x1 x5) (val_main_v14 (F := Ideal) x2 x5 x6) x3 x4 := by
  funext i
  obtain ⟨e, k, rfl⟩ : ∃ (e : Fin 1600000) (k : Fin 64), i = ix2 e k := ⟨i 0, i 1, eq_ix2 (n0 := 1600000) (n1 := 64) i⟩
  rw [val_main_v42_apply, val_main_v39_apply, val_main_v41_apply, val_main_v38_apply, val_main_v40_apply,
    val_main_v18_apply, val_main_v16_apply, val_main_v17_apply, val_main_v15_apply, cidx38, cidx40]
  rfl

/-! ## The mixed features -/

/-- The real mixed features: `%59` of the reference, over its two node sums. -/
theorem mixRe_ref (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v59 (F := Ideal) x0 x1 x2 x3 x4 x5 x6 x7 x8 x9 x10
      = Spec.mixRe (val_main_v45 (F := Ideal) x0 x1 x2 x3 x4 x5 x6) (val_main_v48 (F := Ideal) x0 x1 x2 x3 x4 x5 x6) x7 x9 x8 x10 := by
  funext i
  obtain ⟨n, j, rfl⟩ : ∃ (n : Fin 100000) (j : Fin 64), i = ix2 n j := ⟨i 0, i 1, eq_ix2 (n0 := 100000) (n1 := 64) i⟩
  rw [val_main_v59_apply, val_main_v53_apply, val_main_v58_apply, val_main_v50_apply, val_main_v55_apply,
    val_main_v52_apply, val_main_v51_apply, val_main_v57_apply, val_main_v56_apply, bidx52, bidx57]
  simp only [val_main_v49_apply, val_main_v54_apply, lidx50, ridx50, lidx55, ridx55, tidx49, tidx54]
  rfl

/-- The imaginary mixed features: `%70` of the reference, over its two node sums. -/
theorem mixIm_ref (x0 x1 : (⟨S100000x64, .f32⟩ : BufTy).Contents (Elt Ideal)) (x2 : (⟨S100000, .f32⟩ : BufTy).Contents (Elt Ideal)) (x3 x4 : (⟨S1600000, .f32⟩ : BufTy).Contents (Elt Ideal)) (x5 x6 : (⟨S1600000, .i32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal)) :
    val_main_v70 (F := Ideal) x0 x1 x2 x3 x4 x5 x6 x7 x8 x9 x10
      = Spec.mixIm (val_main_v45 (F := Ideal) x0 x1 x2 x3 x4 x5 x6) (val_main_v48 (F := Ideal) x0 x1 x2 x3 x4 x5 x6) x7 x9 x8 x10 := by
  funext i
  obtain ⟨n, j, rfl⟩ : ∃ (n : Fin 100000) (j : Fin 64), i = ix2 n j := ⟨i 0, i 1, eq_ix2 (n0 := 100000) (n1 := 64) i⟩
  rw [val_main_v70_apply, val_main_v64_apply, val_main_v69_apply, val_main_v61_apply, val_main_v66_apply,
    val_main_v63_apply, val_main_v62_apply, val_main_v68_apply, val_main_v67_apply, bidx63, bidx68]
  simp only [val_main_v60_apply, val_main_v65_apply, lidx61, ridx61, lidx66, ridx66, tidx60, tidx65, mixRe_ref]
  rfl

end Cert.ReferenceIdeal.RefValue

end
-- ==== Proof.Claims.lean ====
/-
  The claims.

  Both idealized programs end with their two results at the SAME functions of the argument arrays: the kernel by
  its run read back through its two launches, the reference by its run read one operation at a time.  What joins
  them is only that the two programs apply the same host operations — the index wrap, the gathers, the zero array, the
  scatter-add — to the same arrays, which holds by unfolding the two programs' names for them; no law of arithmetic is
  used, so the finiteness of the inputs is never opened.  The ideal pass rewrote nothing, so `preserves` has nothing to
  state.
-/
import proofs.«164345_j67585605369883_2_alg».proof.Defs
import proofs.«164345_j67585605369883_2_alg».proof.Proof.Gen.Kernel.Frame
import proofs.«164345_j67585605369883_2_alg».proof.Proof.Gen.KernelIdeal.Frame
import proofs.«164345_j67585605369883_2_alg».proof.Proof.Gen.ReferenceIdeal.Run
import proofs.«164345_j67585605369883_2_alg».proof.Proof.Gen.ReferenceIdeal.Read
import proofs.«164345_j67585605369883_2_alg».proof.Proof.Gen.Pre_finite_inputs
import proofs.«164345_j67585605369883_2_alg».proof.Proof.KernelValue
import proofs.«164345_j67585605369883_2_alg».proof.Proof.RefValue
import proofs.«164345_j67585605369883_2_alg».proof.Proof.Spec

set_option maxRecDepth 16384

noncomputable section

namespace Cert.Proof.Layer

open Idealize.ShloMosaic Idealize.ShloMosaic.TcCoe Idealize.SL.Sem
open Cert.KernelIdeal.Whole Cert.ReferenceIdeal.Read

/-! ## The two programs' host operations are the same operations -/

/-- The reference's real node sum is the kernel's: the same scatter-add of the same message parts. -/
theorem nodeRe_eq (x0 x1 : (⟨Cert.KernelIdeal.S100000x64, .f32⟩ : BufTy).Contents (Elt Ideal)) (x2 : (⟨Cert.KernelIdeal.S100000, .f32⟩ : BufTy).Contents (Elt Ideal)) (x3 x4 : (⟨Cert.KernelIdeal.S1600000, .f32⟩ : BufTy).Contents (Elt Ideal)) (x5 x6 : (⟨Cert.KernelIdeal.S1600000, .i32⟩ : BufTy).Contents (Elt Ideal)) :
    val_main_v45 (F := Ideal) x0 x1 x2 x3 x4 x5 x6
      = nodeSum x6 (Cert.Spec.msgRe (rowsAt x0 x5) (rowsAt x1 x5) (degProd x2 x5 x6) x3 x4) := by
  unfold val_main_v45
  rw [Cert.ReferenceIdeal.RefValue.msgRe_ref]
  rfl

/-- The reference's imaginary node sum is the kernel's. -/
theorem nodeIm_eq (x0 x1 : (⟨Cert.KernelIdeal.S100000x64, .f32⟩ : BufTy).Contents (Elt Ideal)) (x2 : (⟨Cert.KernelIdeal.S100000, .f32⟩ : BufTy).Contents (Elt Ideal)) (x3 x4 : (⟨Cert.KernelIdeal.S1600000, .f32⟩ : BufTy).Contents (Elt Ideal)) (x5 x6 : (⟨Cert.KernelIdeal.S1600000, .i32⟩ : BufTy).Contents (Elt Ideal)) :
    val_main_v48 (F := Ideal) x0 x1 x2 x3 x4 x5 x6
      = nodeSum x6 (Cert.Spec.msgIm (rowsAt x0 x5) (rowsAt x1 x5) (degProd x2 x5 x6) x3 x4) := by
  unfold val_main_v48
  rw [Cert.ReferenceIdeal.RefValue.msgIm_ref]
  rfl

/-- The reference's first result is the kernel's first result, as functions of the arguments. -/
theorem outRe_eq (x0 x1 : (⟨Cert.KernelIdeal.S100000x64, .f32⟩ : BufTy).Contents (Elt Ideal)) (x2 : (⟨Cert.KernelIdeal.S100000, .f32⟩ : BufTy).Contents (Elt Ideal)) (x3 x4 : (⟨Cert.KernelIdeal.S1600000, .f32⟩ : BufTy).Contents (Elt Ideal)) (x5 x6 : (⟨Cert.KernelIdeal.S1600000, .i32⟩ : BufTy).Contents (Elt Ideal)) (x7 : (⟨Cert.KernelIdeal.S64x64, .f32⟩ : BufTy).Contents (Elt Ideal)) (x8 : (⟨Cert.KernelIdeal.S64, .f32⟩ : BufTy).Contents (Elt Ideal)) (x9 : (⟨Cert.KernelIdeal.S64x64, .f32⟩ : BufTy).Contents (Elt Ideal)) (x10 : (⟨Cert.KernelIdeal.S64, .f32⟩ : BufTy).Contents (Elt Ideal)) :
    val_main_v59 (F := Ideal) x0 x1 x2 x3 x4 x5 x6 x7 x8 x9 x10 = outRe x0 x1 x2 x3 x4 x5 x6 x7 x8 x9 x10 := by
  rw [Cert.ReferenceIdeal.RefValue.mixRe_ref, nodeRe_eq, nodeIm_eq]
  rfl

/-- The reference's second result is the kernel's second result, as functions of the arguments. -/
theorem outIm_eq (x0 x1 : (⟨Cert.KernelIdeal.S100000x64, .f32⟩ : BufTy).Contents (Elt Ideal)) (x2 : (⟨Cert.KernelIdeal.S100000, .f32⟩ : BufTy).Contents (Elt Ideal)) (x3 x4 : (⟨Cert.KernelIdeal.S1600000, .f32⟩ : BufTy).Contents (Elt Ideal)) (x5 x6 : (⟨Cert.KernelIdeal.S1600000, .i32⟩ : BufTy).Contents (Elt Ideal)) (x7 : (⟨Cert.KernelIdeal.S64x64, .f32⟩ : BufTy).Contents (Elt Ideal)) (x8 : (⟨Cert.KernelIdeal.S64, .f32⟩ : BufTy).Contents (Elt Ideal)) (x9 : (⟨Cert.KernelIdeal.S64x64, .f32⟩ : BufTy).Contents (Elt Ideal)) (x10 : (⟨Cert.KernelIdeal.S64, .f32⟩ : BufTy).Contents (Elt Ideal)) :
    val_main_v70 (F := Ideal) x0 x1 x2 x3 x4 x5 x6 x7 x8 x9 x10 = outIm x0 x1 x2 x3 x4 x5 x6 x7 x8 x9 x10 := by
  rw [Cert.ReferenceIdeal.RefValue.mixIm_ref, nodeRe_eq, nodeIm_eq]
  rfl

/-! ## The five claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the arguments both idealized programs end with the two results at the layer's real and
    imaginary outputs of those arguments. -/
theorem algebraic : Cert.algebraic_KernelIdeal_ReferenceIdeal := by
  intro m ρ m' ρ' _ hagree
  refine ⟨fun c => outRe (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), fun c => outIm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [val_main_v59_eq, a0, a1, a2, a3, a4, a5, a6, a7, a8, a9, a10]
    exact outRe_eq _ _ _ _ _ _ _ _ _ _ _
  · obtain ⟨a0, a1, a2, a3, a4, a5, a6, a7, a8, a9, a10⟩ := hagree c
    rw [val_main_v70_eq, a0, a1, a2, a3, a4, a5, a6, a7, a8, a9, a10]
    exact outIm_eq _ _ _ _ _ _ _ _ _ _ _

end Cert.Proof.Layer

end
-- ==== Proof.lean ====
/-
  The signed message-passing layer: the Pallas kernel (an edge-message launch and a node-mixing launch, with the
  gathers and the scatter-adds left to the host) against its plain jnp reference, over the extended reals.

  Per edge both programs form the complex message (d[dst]·d[src]·(w_r + i·w_i)) · (h_r[src] + i·h_i[src]), written out
  in real and imaginary parts with the same grouping of every product; both sum the messages per destination node by the
  same scatter-add into a zero array; and both mix the node sums by z_r = (a·W1ᵀ + b1) − (b·W2ᵀ + b2),
  z_i = (z_r·W2ᵀ + b2) + (b·W1ᵀ + b1).  The kernel's bf16 operand casts are the identity over the extended reals and its
  products into a zero accumulator are plain sums, so the two programs compute one function, term by term
  (Proof/Spec.lean states it; Proof/Region0.lean and Proof/Region1.lean read the two launches; Proof/KernelValue.lean
  and Proof/RefValue.lean the two programs; Proof/Claims.lean joins them).
-/
import proofs.«164345_j67585605369883_2_alg».proof.Defs
import proofs.«164345_j67585605369883_2_alg».proof.Proof.Gen.Kernel
import proofs.«164345_j67585605369883_2_alg».proof.Proof.Gen.Kernel.Skeleton
import proofs.«164345_j67585605369883_2_alg».proof.Proof.Gen.Kernel.Launch
import proofs.«164345_j67585605369883_2_alg».proof.Proof.Gen.Kernel.Points
import proofs.«164345_j67585605369883_2_alg».proof.Proof.Gen.Kernel.Frame
import proofs.«164345_j67585605369883_2_alg».proof.Proof.Gen.KernelIdeal
import proofs.«164345_j67585605369883_2_alg».proof.Proof.Gen.KernelIdeal.Skeleton
import proofs.«164345_j67585605369883_2_alg».proof.Proof.Gen.KernelIdeal.Launch
import proofs.«164345_j67585605369883_2_alg».proof.Proof.Gen.KernelIdeal.Points
import proofs.«164345_j67585605369883_2_alg».proof.Proof.Gen.KernelIdeal.Frame
import proofs.«164345_j67585605369883_2_alg».proof.Proof.Gen.ReferenceIdeal
import proofs.«164345_j67585605369883_2_alg».proof.Proof.Gen.ReferenceIdeal.Run
import proofs.«164345_j67585605369883_2_alg».proof.Proof.Gen.ReferenceIdeal.Read
import proofs.«164345_j67585605369883_2_alg».proof.Proof.Gen.Pre_finite_inputs
import proofs.«164345_j67585605369883_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Layer.frame_k, Layer.frame_ki, Layer.frame_ri, Layer.preserves, Layer.algebraic⟩

end Cert.Proof

end
